-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x500x256 : Shape := ⟨3, ![64, 500, 256]⟩
abbrev S1536x256 : Shape := ⟨2, ![1536, 256]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S64x500x256 : S_.BroadcastsInDim S64x500x256 (![] : Fin 0 → Fin S64x500x256.rank)
  reducesTo_S64x500x256_S_d0_1_2 : S64x500x256.ReducesTo [0, 1, 2] S_
  h_S_ : 0 < S_.numel
  bcast_S_S1536x256 : S_.BroadcastsInDim S1536x256 (![] : Fin 0 → Fin S1536x256.rank)
  reducesTo_S1536x256_S_d0_1 : S1536x256.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x500x256 .f32) (main_arg1 : FVec F S1536x256 .f32) (main_arg2 : FVec F S1536 .f32) (main_arg3 : FVec F S512x512 .f32) (main_arg4 : FVec F S512 .f32) : IVec S_ 1 :=
  let main_v0 : FVec F S64x500x256 .f32 := Host.absf main_arg0
  let main_cst : FVec F S_ .f32 := constant S_ .f32 0x7F800000#32
  let main_v1 : FVec F S64x500x256 .f32 := broadcastInDim S64x500x256 ![] bcast_S_S64x500x256 main_cst
  let main_v2 : IVec S64x500x256 1 := cmpf .olt main_v0 main_v1
  let main_c : IVec S_ 1 := constantI S_ 1 1#1
  let main_v3 : IVec S_ 1 := (fun x v => Host.reduce IntOp.andi x v reducesTo_S64x500x256_S_d0_1_2 h_S_) main_v2 main_c
  let main_v4 : FVec F S1536x256 .f32 := Host.absf main_arg1
  let main_cst_0 : FVec F S_ .f32 := constant S_ .f32 0x7F800000#32
  let main_v5 : FVec F S1536x256 .f32 := broadcastInDim S1536x256 ![] bcast_S_S1536x256 main_cst_0
  let main_v6 : IVec S1536x256 1 := cmpf .olt main_v4 main_v5
  let main_c_1 : IVec S_ 1 := constantI S_ 1 1#1
  let main_v7 : IVec S_ 1 := (fun x v => Host.reduce IntOp.andi x v reducesTo_S1536x256_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S64x500x256 : Shape := ⟨3, ![64, 500, 256]⟩
abbrev S1536x256 : Shape := ⟨2, ![1536, 256]⟩
abbrev S1536 : Shape := ⟨1, ![1536]⟩
abbrev S512x512 : Shape := ⟨2, ![512, 512]⟩
abbrev S512 : Shape := ⟨1, ![512]⟩
abbrev S32000x256 : Shape := ⟨2, ![32000, 256]⟩
abbrev S256x1536 : Shape := ⟨2, ![256, 1536]⟩
abbrev S1x1536 : Shape := ⟨2, ![1, 1536]⟩
abbrev S32000x1536 : Shape := ⟨2, ![32000, 1536]⟩
abbrev S800x256 : Shape := ⟨2, ![800, 256]⟩
abbrev S800x1536 : Shape := ⟨2, ![800, 1536]⟩
abbrev S64x500x1536 : Shape := ⟨3, ![64, 500, 1536]⟩
abbrev S1x512 : Shape := ⟨2, ![1, 512]⟩
abbrev S64x500x512 : Shape := ⟨3, ![64, 500, 512]⟩
abbrev S1x500x1536 : Shape := ⟨3, ![1, 500, 1536]⟩
abbrev S1x500x512 : Shape := ⟨3, ![1, 500, 512]⟩
abbrev S500x1536 : Shape := ⟨2, ![500, 1536]⟩
abbrev S500x512 : Shape := ⟨2, ![500, 512]⟩
abbrev S500x64 : Shape := ⟨2, ![500, 64]⟩
abbrev S64x500 : Shape := ⟨2, ![64, 500]⟩
abbrev S500x500 : Shape := ⟨2, ![500, 500]⟩
abbrev S500 : Shape := ⟨1, ![500]⟩
abbrev S500x1 : Shape := ⟨2, ![500, 1]⟩

abbrev nBuf : Space → Nat
  | .hbm => 13
  | .vmem => 12
  | .smem => 0
  | _ => 0

abbrev bufTy : (tb : Table) → Fin (tcTables nBuf tb) → BufTy
  | .hbm, ⟨0, _⟩ => ⟨S64x500x256, .f32⟩
  | .hbm, ⟨1, _⟩ => ⟨S1536x256, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S32000x256, .f32⟩
  | .hbm, ⟨6, _⟩ => ⟨S256x1536, .f32⟩
  | .hbm, ⟨7, _⟩ => ⟨S1x1536, .f32⟩
  | .hbm, ⟨8, _⟩ => ⟨S32000x1536, .bf16⟩
  | .hbm, ⟨9, _⟩ => ⟨S64x500x1536, .bf16⟩
  | .hbm, ⟨10, _⟩ => ⟨S512x512, .f32⟩
  | .hbm, ⟨11, _⟩ => ⟨S1x512, .f32⟩
  | .hbm, ⟨12, _⟩ => ⟨S64x500x512, .f32⟩
  | .local _ .vmem, ⟨0, _⟩ => ⟨S800x256, .f32⟩
  | .local _ .vmem, ⟨1, _⟩ => ⟨S800x256, .f32⟩
  | .local _ .vmem, ⟨2, _⟩ => ⟨S256x1536, .f32⟩
  | .local _ .vmem, ⟨3, _⟩ => ⟨S1x1536, .f32⟩
  | .local _ .vmem, ⟨4, _⟩ => ⟨S800x1536, .bf16⟩
  | .local _ .vmem, ⟨5, _⟩ => ⟨S800x1536, .bf16⟩
  | .local _ .vmem, ⟨6, _⟩ => ⟨S1x500x1536, .bf16⟩
  | .local _ .vmem, ⟨7, _⟩ => ⟨S1x500x1536, .bf16⟩
  | .local _ .vmem, ⟨8, _⟩ => ⟨S512x512, .f32⟩
  | .local _ .vmem, ⟨9, _⟩ => ⟨S1x512, .f32⟩
  | .local _ .vmem, ⟨10, _⟩ => ⟨S1x500x512, .f32⟩
  | .local _ .vmem, ⟨11, _⟩ => ⟨S1x500x512, .f32⟩
  | _, _ => ⟨S64x500x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S800x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x500x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x500x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S64x500x256_S32000x256 : S64x500x256.ShapeCasts S32000x256
  transposes_S1536x256_S256x1536_1_0 : S1536x256.Transposes [1, 0] S256x1536
  shapeCasts_S1536_S1x1536 : S1536.ShapeCasts S1x1536
  inb_S800x256_S800x256_0_0 : ∀ a, (![0, 0] : Fin 2 → Nat) a + S800x256.size a ≤ S800x256.size a
  h_S800x256 : 0 < S800x256.numel
  shapeCasts_S800x256_S800x256 : S800x256.ShapeCasts S800x256
  bitsLt_bf16_f32 : FTy.bits .bf16 < FTy.bits .f32
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S800x1536 : S1x1536.Broadcasts S800x1536
  inb_S800x1536_S800x1536_0_0 : ∀ a, (![0, 0] : Fin 2 → Nat) a + S800x1536.size a ≤ S800x1536.size a
  h_S800x1536 : 0 < S800x1536.numel
  packedbf16_S800x1536_S800x1536_0_0 : (Rect.unit (s := S800x1536) ![0, 0] S800x1536.size inb_S800x1536_S800x1536_0_0).PackedRows (EltTy.packing .bf16)
  shapeCasts_S32000x1536_S64x500x1536 : S32000x1536.ShapeCasts S64x500x1536
  transposes_S512x512_S512x512_1_0 : S512x512.Transposes [1, 0] S512x512
  shapeCasts_S512_S1x512 : S512.ShapeCasts S1x512
  inb_S1x500x1536_S1x500x1536_0_0_0 : ∀ a, (![0, 0, 0] : Fin 3 → Nat) a + S1x500x1536.size a ≤ S1x500x1536.size a
  h_S1x500x1536 : 0 < S1x500x1536.numel
  shapeCasts_S1x500x1536_S500x1536 : S1x500x1536.ShapeCasts S500x1536
  slices_S500x1536_o0_0_S500x512 : S500x1536.Slices ![0, 0] S500x512
  slices_S500x1536_o0_512_S500x512 : S500x1536.Slices ![0, 512] S500x512
  slices_S500x1536_o0_1024_S500x512 : S500x1536.Slices ![0, 1024] S500x512
  slices_S500x512_o0_0_S500x64 : S500x512.Slices ![0, 0] S500x64
  transposes_S500x64_p1_0_S64x500 : S500x64.Transposes [1, 0] S64x500
  reduces_S500x500_S500 : S500x500.Reduces [1] S500
  shapeCasts_S500_S500x1 : S500.ShapeCasts S500x1
  broadcasts_S500x1_S500x500 : S500x1.Broadcasts S500x500
  broadcasts_S500x1_S500x64 : S500x1.Broadcasts S500x64
  slices_S500x512_o0_64_S500x64 : S500x512.Slices ![0, 64] S500x64
  slices_S500x512_o0_128_S500x64 : S500x512.Slices ![0, 128] S500x64
  slices_S500x512_o0_192_S500x64 : S500x512.Slices ![0, 192] S500x64
  slices_S500x512_o0_256_S500x64 : S500x512.Slices ![0, 256] S500x64
  slices_S500x512_o0_320_S500x64 : S500x512.Slices ![0, 320] S500x64
  slices_S500x512_o0_384_S500x64 : S500x512.Slices ![0, 384] S500x64
  slices_S500x512_o0_448_S500x64 : S500x512.Slices ![0, 448] S500x64
  concatenates_S500x64_S500x64_S500x64_S500x64_S500x64_S500x64_S500x64_S500x64_S500x512_d1 : Shape.Concatenates [S500x64, S500x64, S500x64, S500x64, S500x64, S500x64, S500x64, S500x64] S500x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S500x512 : S1x512.Broadcasts S500x512
  inb_S1x500x512_S1x500x512_0_0_0 : ∀ a, (![0, 0, 0] : Fin 3 → Nat) a + S1x500x512.size a ≤ S1x500x512.size a
  h_S1x500x512 : 0 < S1x500x512.numel
  shapeCasts_S1x500x512_S500x512 : S1x500x512.ShapeCasts S500x512
  shapeCasts_S500x512_S1x500x512 : S500x512.ShapeCasts S1x500x512
  dot_S800x256_S256x1536_S800x1536_1_0_0_1_n_n_wf : DotDims.WF S800x256 S256x1536 S800x1536 [1] [0] [0] [1] [] []
  dot_S500x64_S64x500_S500x500_1_0_0_1_n_n_wf : DotDims.WF S500x64 S64x500 S500x500 [1] [0] [0] [1] [] []
  dot_S500x500_S500x64_S500x64_1_0_0_1_n_n_wf : DotDims.WF S500x500 S500x64 S500x64 [1] [0] [0] [1] [] []
  dot_S500x512_S512x512_S500x512_1_0_0_1_n_n_wf : DotDims.WF S500x512 S512x512 S500x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x256.size a ≤ S32000x256.size a
  hwx0_0 : ∀ i : grid0.Coords, EltTy.bits .f32 = 32 ∨ (Rect.block (s := S32000x256) S800x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1536.size a ≤ S256x1536.size a
  hwx0_1 : ∀ i : grid0.Coords, EltTy.bits .f32 = 32 ∨ (Rect.block (s := S256x1536) S256x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x1536.size a ≤ S32000x1536.size a
  hwx0_3 : ∀ i : grid0.Coords, EltTy.bits .bf16 = 32 ∨ (Rect.block (s := S32000x1536) S800x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x500x1536.size a ≤ S64x500x1536.size a
  hwx1_0 : ∀ i : grid1.Coords, EltTy.bits .bf16 = 32 ∨ (Rect.block (s := S64x500x1536) S1x500x1536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x500x512.size a ≤ S64x500x512.size a
  hwx1_3 : ∀ i : grid1.Coords, EltTy.bits .f32 = 32 ∨ (Rect.block (s := S64x500x512) S1x500x512.size (cc1_transform_3 i) (hinb1_3 i)).WholeWords (EltTy.packing .f32)

variable [Facts₀]

def dot_S800x256_S256x1536_S800x1536_1_0_0_1_n_n : DotDims S800x256 S256x1536 S800x1536 where
  lhsContracting := [1]
  rhsContracting := [0]
  lhsNonContracting := [0]
  rhsNonContracting := [1]
  lhsBatch := []
  rhsBatch := []
  wf := dot_S800x256_S256x1536_S800x1536_1_0_0_1_n_n_wf
def dot_S500x64_S64x500_S500x500_1_0_0_1_n_n : DotDims S500x64 S64x500 S500x500 where
  lhsContracting := [1]
  rhsContracting := [0]
  lhsNonContracting := [0]
  rhsNonContracting := [1]
  lhsBatch := []
  rhsBatch := []
  wf := dot_S500x64_S64x500_S500x500_1_0_0_1_n_n_wf
def dot_S500x500_S500x64_S500x64_1_0_0_1_n_n : DotDims S500x500 S500x64 S500x64 where
  lhsContracting := [1]
  rhsContracting := [0]
  lhsNonContracting := [0]
  rhsNonContracting := [1]
  lhsBatch := []
  rhsBatch := []
  wf := dot_S500x500_S500x64_S500x64_1_0_0_1_n_n_wf
def dot_S500x512_S512x512_S500x512_1_0_0_1_n_n : DotDims S500x512 S512x512 S500x512 where
  lhsContracting := [1]
  rhsContracting := [0]
  lhsNonContracting := [0]
  rhsNonContracting := [1]
  lhsBatch := []
  rhsBatch := []
  wf := dot_S500x512_S512x512_S500x512_1_0_0_1_n_n_wf

abbrev win0_0 : Pipeline.Window sig grid0 :=
  Pipeline.Window.ofSpec (Memref.whole main_v0) S800x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S800x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x500x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x500x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x500x256 : Shape := ⟨3, ![64, 500, 256]⟩
abbrev S1536x256 : Shape := ⟨2, ![1536, 256]⟩
abbrev S1536 : Shape := ⟨1, ![1536]⟩
abbrev S512x512 : Shape := ⟨2, ![512, 512]⟩
abbrev S512 : Shape := ⟨1, ![512]⟩
abbrev S64x500x1536 : Shape := ⟨3, ![64, 500, 1536]⟩
abbrev S1x1x1536 : Shape := ⟨3, ![1, 1, 1536]⟩
abbrev S64x500x512 : Shape := ⟨3, ![64, 500, 512]⟩
abbrev S64x500x8x64 : Shape := ⟨4, ![64, 500, 8, 64]⟩
abbrev S64x8x500x64 : Shape := ⟨4, ![64, 8, 500, 64]⟩
abbrev S64x8x500x500 : Shape := ⟨4, ![64, 8, 500, 500]⟩
abbrev S_ : Shape := ⟨0, ![]⟩
abbrev S64x8x500 : Shape := ⟨3, ![64, 8, 500]⟩
abbrev S64x8x500x1 : Shape := ⟨4, ![64, 8, 500, 1]⟩
abbrev S1x1x512 : Shape := ⟨3, ![1, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S64x500x256, .f32⟩
  | .hbm, ⟨1, _⟩ => ⟨S1536x256, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S64x500x1536, .f32⟩
  | .hbm, ⟨6, _⟩ => ⟨S1x1x1536, .f32⟩
  | .hbm, ⟨7, _⟩ => ⟨S64x500x1536, .f32⟩
  | .hbm, ⟨8, _⟩ => ⟨S64x500x1536, .f32⟩
  | .hbm, ⟨9, _⟩ => ⟨S64x500x512, .f32⟩
  | .hbm, ⟨10, _⟩ => ⟨S64x500x512, .f32⟩
  | .hbm, ⟨11, _⟩ => ⟨S64x500x512, .f32⟩
  | .hbm, ⟨12, _⟩ => ⟨S64x500x8x64, .f32⟩
  | .hbm, ⟨13, _⟩ => ⟨S64x8x500x64, .f32⟩
  | .hbm, ⟨14, _⟩ => ⟨S64x500x8x64, .f32⟩
  | .hbm, ⟨15, _⟩ => ⟨S64x8x500x64, .f32⟩
  | .hbm, ⟨16, _⟩ => ⟨S64x500x8x64, .f32⟩
  | .hbm, ⟨17, _⟩ => ⟨S64x8x500x64, .f32⟩
  | .hbm, ⟨18, _⟩ => ⟨S64x8x500x500, .f32⟩
  | .hbm, ⟨19, _⟩ => ⟨S_, .f32⟩
  | .hbm, ⟨20, _⟩ => ⟨S64x8x500x500, .f32⟩
  | .hbm, ⟨21, _⟩ => ⟨S64x8x500x500, .f32⟩
  | .hbm, ⟨22, _⟩ => ⟨S_, .f32⟩
  | .hbm, ⟨23, _⟩ => ⟨S64x8x500, .f32⟩
  | .hbm, ⟨24, _⟩ => ⟨S_, .f32⟩
  | .hbm, ⟨25, _⟩ => ⟨S64x8x500, .f32⟩
  | .hbm, ⟨26, _⟩ => ⟨S64x8x500, .f32⟩
  | .hbm, ⟨27, _⟩ => ⟨S64x8x500x1, .f32⟩
  | .hbm, ⟨28, _⟩ => ⟨S64x8x500x500, .f32⟩
  | .hbm, ⟨29, _⟩ => ⟨S64x8x500x500, .f32⟩
  | .hbm, ⟨30, _⟩ => ⟨S64x8x500x500, .f32⟩
  | .hbm, ⟨31, _⟩ => ⟨S_, .f32⟩
  | .hbm, ⟨32, _⟩ => ⟨S64x8x500, .f32⟩
  | .hbm, ⟨33, _⟩ => ⟨S64x8x500x1, .f32⟩
  | .hbm, ⟨34, _⟩ => ⟨S64x8x500x500, .f32⟩
  | .hbm, ⟨35, _⟩ => ⟨S64x8x500x500, .f32⟩
  | .hbm, ⟨36, _⟩ => ⟨S64x8x500x64, .f32⟩
  | .hbm, ⟨37, _⟩ => ⟨S64x500x8x64, .f32⟩
  | .hbm, ⟨38, _⟩ => ⟨S64x500x512, .f32⟩
  | .hbm, ⟨39, _⟩ => ⟨S64x500x512, .f32⟩
  | .hbm, ⟨40, _⟩ => ⟨S1x1x512, .f32⟩
  | .hbm, ⟨41, _⟩ => ⟨S64x500x512, .f32⟩
  | .hbm, ⟨42, _⟩ => ⟨S64x500x512, .f32⟩
  | _, _ => ⟨S64x500x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S64x500x1536_0_1_2 : S1x1x1536.BroadcastsInDim S64x500x1536 (![0, 1, 2] : Fin 3 → Fin S64x500x1536.rank)
  slices_S64x500x1536_S64x500x512_0_0_0 : S64x500x1536.Slices ![0, 0, 0] S64x500x512
  slices_S64x500x1536_S64x500x512_0_0_512 : S64x500x1536.Slices ![0, 0, 512] S64x500x512
  slices_S64x500x1536_S64x500x512_0_0_1024 : S64x500x1536.Slices ![0, 0, 1024] S64x500x512
  shapeCasts_S64x500x512_S64x500x8x64 : S64x500x512.ShapeCasts S64x500x8x64
  transposes_S64x500x8x64_S64x8x500x64_0_2_1_3 : S64x500x8x64.Transposes [0, 2, 1, 3] S64x8x500x64
  bcast_S_S64x8x500x500 : S_.BroadcastsInDim S64x8x500x500 (![] : Fin 0 → Fin S64x8x500x500.rank)
  reducesTo_S64x8x500x500_S64x8x500_d3 : S64x8x500x500.ReducesTo [3] S64x8x500
  h_S_ : 0 < S_.numel
  bcast_S_S64x8x500 : S_.BroadcastsInDim S64x8x500 (![] : Fin 0 → Fin S64x8x500.rank)
  bcast_S64x8x500_S64x8x500x1_0_1_2 : S64x8x500.BroadcastsInDim S64x8x500x1 (![0, 1, 2] : Fin 3 → Fin S64x8x500x1.rank)
  bcast_S64x8x500x1_S64x8x500x500_0_1_2_3 : S64x8x500x1.BroadcastsInDim S64x8x500x500 (![0, 1, 2, 3] : Fin 4 → Fin S64x8x500x500.rank)
  transposes_S64x8x500x64_S64x500x8x64_0_2_1_3 : S64x8x500x64.Transposes [0, 2, 1, 3] S64x500x8x64
  shapeCasts_S64x500x8x64_S64x500x512 : S64x500x8x64.ShapeCasts S64x500x512
  bcast_S512_S1x1x512_2 : S512.BroadcastsInDim S1x1x512 (![2] : Fin 1 → Fin S1x1x512.rank)
  bcast_S1x1x512_S64x500x512_0_1_2 : S1x1x512.BroadcastsInDim S64x500x512 (![0, 1, 2] : Fin 3 → Fin S64x500x512.rank)
  dot_S64x500x256_S1536x256_S64x500x1536_2_1_01_0_n_n_wf : DotDims.WF S64x500x256 S1536x256 S64x500x1536 [2] [1] [0, 1] [0] [] []
  dot_S64x8x500x64_S64x8x500x64_S64x8x500x500_3_3_2_2_01_01_wf : DotDims.WF S64x8x500x64 S64x8x500x64 S64x8x500x500 [3] [3] [2] [2] [0, 1] [0, 1]
  dot_S64x8x500x500_S64x8x500x64_S64x8x500x64_3_2_2_3_01_01_wf : DotDims.WF S64x8x500x500 S64x8x500x64 S64x8x500x64 [3] [2] [2] [3] [0, 1] [0, 1]
  dot_S64x500x512_S512x512_S64x500x512_2_1_01_0_n_n_wf : DotDims.WF S64x500x512 S512x512 S64x500x512 [2] [1] [0, 1] [0] [] []

variable [Facts₀]

def dot_S64x500x256_S1536x256_S64x500x1536_2_1_01_0_n_n : DotDims S64x500x256 S1536x256 S64x500x1536 where
  lhsContracting := [2]
  rhsContracting := [1]
  lhsNonContracting := [0, 1]
  rhsNonContracting := [0]
  lhsBatch := []
  rhsBatch := []
  wf := dot_S64x500x256_S1536x256_S64x500x1536_2_1_01_0_n_n_wf
def dot_S64x8x500x64_S64x8x500x64_S64x8x500x500_3_3_2_2_01_01 : DotDims S64x8x500x64 S64x8x500x64 S64x8x500x500 where
  lhsContracting := [3]
  rhsContracting := [3]
  lhsNonContracting := [2]
  rhsNonContracting := [2]
  lhsBatch := [0, 1]
  rhsBatch := [0, 1]
  wf := dot_S64x8x500x64_S64x8x500x64_S64x8x500x500_3_3_2_2_01_01_wf
def dot_S64x8x500x500_S64x8x500x64_S64x8x500x64_3_2_2_3_01_01 : DotDims S64x8x500x500 S64x8x500x64 S64x8x500x64 where
  lhsContracting := [3]
  rhsContracting := [2]
  lhsNonContracting := [2]
  rhsNonContracting := [3]
  lhsBatch := [0, 1]
  rhsBatch := [0, 1]
  wf := dot_S64x8x500x500_S64x8x500x64_S64x8x500x64_3_2_2_3_01_01_wf
def dot_S64x500x512_S512x512_S64x500x512_2_1_01_0_n_n : DotDims S64x500x512 S512x512 S64x500x512 where
  lhsContracting := [2]
  rhsContracting := [1]
  lhsNonContracting := [0, 1]
  rhsNonContracting := [0]
  lhsBatch := []
  rhsBatch := []
  wf := dot_S64x500x512_S512x512_S64x500x512_2_1_01_0_n_n_wf

class Facts : Prop extends Facts₀ where

variable [Facts]
-- ==== Proof.KernelRun.lean ====
/-
  The kernel's run with its result named. From any memory with zero counters every weakly fair execution of the
  program on the TensorCores terminates, nothing faulting, and in every final state the result buffer holds the
  contents the second region leaves at its exit, W4, while the five argument arrays are as launched. The last thread
  state of the run holds every unscoped buffer at W4; the result buffer is one of them, and the arguments walk back
  through the two regions and the two stretches of host operations to the launch memory.
-/
import proofs.«103506_j85375359910650_2_alg».proof.Proof.Gen.KernelIdeal.Frame

set_option maxRecDepth 16384

noncomputable section

namespace Cert.Attn.Ker

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, keeping the result: the final state has the result buffer at the second region's exit contents and the
    argument arrays as launched. -/
theorem run_value : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Attn.Ker

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.Payload0.lean ====
/-
  The fused projection's block, read at an entry on the extended reals: for a block of 800 input rows x0 : [800, 256],
  the weight x1 : [256, 1536] and the bias row x2 : [1, 1536], entry (p, q) of what the body stores is
      Σ_c x0 (p, c) · x1 (c, q) + x2 (0, q).
  The changes of float format and the reshapes to the same shape are identities on the extended reals.
-/
import proofs.«103506_j85375359910650_2_alg».proof.Proof.Gen.KernelIdeal.Skeleton
import proofs.«103506_j85375359910650_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Ker

open Cert.KernelIdeal Cert.KernelIdeal.Gen Idealize.ShloMosaic Idealize.ShloMosaic.ValueIdx

/-- The product of the block of rows with the weight, into the zero accumulator, at entry (p, q). -/
theorem proj_dot_apply (x0 : Vec Ideal S800x256 .f32) (x1 : Vec Ideal S256x1536 .f32) (p : Fin 800) (q : Fin 1536) :
    matmul (F := Ideal) dot_S800x256_S256x1536_S800x1536_1_0_0_1_n_n none
        (truncf .bf16 (shapeCast S800x256 x0 shapeCasts_S800x256_S800x256) bitsLt_bf16_f32)
        (truncf .bf16 (shapeCast S256x1536 x1 shapeCasts_S256x1536_S256x1536) bitsLt_bf16_f32)
        (constant (F := Ideal) S800x1536 .f32 0x00000000#32) (ix2 p q)
      = ∑ c : Fin 256, x0 (ix2 p c) * x1 (ix2 c q) := by
  refine (Cert.LibPlainDot.matmul_plain_zero_apply 800 256 1536 none
    (truncf .bf16 (shapeCast S800x256 x0 shapeCasts_S800x256_S800x256) bitsLt_bf16_f32)
    (truncf .bf16 (shapeCast S256x1536 x1 shapeCasts_S256x1536_S256x1536) bitsLt_bf16_f32) p q).trans ?_
  rw [shapeCast_self, shapeCast_self]
  rfl

/-- The bias row spread over the 800 rows, at entry (p, q). -/
theorem proj_bias_apply (x2 : Vec Ideal S1x1536 .f32) (p : Fin 800) (q : Fin 1536) :
    broadcastTo S800x1536 (shapeCast S1x1536 x2 shapeCasts_S1x1536_S1x1536) broadcasts_S1x1536_S800x1536 (ix2 p q)
      = x2 (ix2 (0 : Fin 1) q) := by
  refine (broadcastTo_1b_ab_apply _ broadcasts_S1x1536_S800x1536 p q).trans ?_
  rw [shapeCast_self]

/-- What the body stores, at entry (p, q) of the block. -/
theorem pay0_apply (x0 : Vec Ideal S800x256 .f32) (x1 : Vec Ideal S256x1536 .f32) (x2 : Vec Ideal S1x1536 .f32)
    (p : Fin 800) (q : Fin 1536) :
    k0_pay1 x0 x1 x2 (ix2 p q) = (∑ c : Fin 256, x0 (ix2 p c) * x1 (ix2 c q)) + x2 (ix2 (0 : Fin 1) q) :=
  congrArg₂ (fun a b : EReal => a + b) (proj_dot_apply x0 x1 p q) (proj_bias_apply x2 p q)

end Cert.Attn.Ker

end
-- ==== Proof.Spec.lean ====
/-
  The specification: multi-head self-attention followed by an output projection, as one function of the five
  argument arrays, index by index, on the extended reals.

  With x : [64, 500, 256], W_a : [1536, 256], b_a : [1536], W_p : [512, 512], b_p : [512]:
    qkv b t e     = Σ_c x[b,t,c] · W_a[e,c] + b_a[e]                     (e < 1536: queries, keys, values side by side)
    score b h t s = (Σ_d qkv b t (h·64+d) · qkv b s (512 + h·64+d)) · 1/8
    rowMax b h t  = max over s of score b h t s  (folded from -∞)
    weight b h t s = exp (score b h t s - rowMax b h t)
    denom b h t   = Σ_s weight b h t s
  and the attention output of head h at (t, d) in TWO arrangements:
    headK = (Σ_s weight · v) / denom        — the value product first, one division per output entry
    headR = Σ_s (weight / denom) · v        — the weights normalised first (a softmax), then the value product
  with v = qkv b s (1024 + h·64+d). The result is  Σ_e head[b,t,e/64,e%64] · W_p[f,e] + b_p[f].
  The two arrangements agree where the denominator is a positive real (Law.lean); nothing here needs that.
-/
import Idealize.ShloMosaic.PureOps.Ideal
import Idealize.ShloMosaic.Lib.ValueIdx

noncomputable section

open scoped BigOperators

namespace Cert.Attn

open Idealize.ShloMosaic Idealize.ShloMosaic.ValueIdx

abbrev SX : Shape := ⟨3, ![64, 500, 256]⟩
abbrev SWA : Shape := ⟨2, ![1536, 256]⟩
abbrev SBA : Shape := ⟨1, ![1536]⟩
abbrev SWP : Shape := ⟨2, ![512, 512]⟩
abbrev SBP : Shape := ⟨1, ![512]⟩
abbrev SO : Shape := ⟨3, ![64, 500, 512]⟩

/-- Column of head `h`'s coordinate `d` in the query third, the key third and the value third of the fused projection. -/
def qcol (h : Fin 8) (d : Fin 64) : Fin 1536 := ⟨h.val * 64 + d.val, by have := h.isLt; have := d.isLt; omega⟩
def kcol (h : Fin 8) (d : Fin 64) : Fin 1536 := ⟨512 + (h.val * 64 + d.val), by have := h.isLt; have := d.isLt; omega⟩
def vcol (h : Fin 8) (d : Fin 64) : Fin 1536 := ⟨1024 + (h.val * 64 + d.val), by have := h.isLt; have := d.isLt; omega⟩

/-- Head and coordinate of a column of the concatenated attention output. -/
def headOf (e : Fin 512) : Fin 8 := ⟨e.val / 64, by have := e.isLt; omega⟩
def dimOf (e : Fin 512) : Fin 64 := ⟨e.val % 64, by omega⟩

section
variable (x : SX.Idx → EReal) (wa : SWA.Idx → EReal) (ba : SBA.Idx → EReal) (wp : SWP.Idx → EReal) (bp : SBP.Idx → EReal)

/-- The fused query/key/value projection: row (b, t) of the input against row e of the weight, plus the bias. -/
def qkv (b : Fin 64) (t : Fin 500) (e : Fin 1536) : EReal :=
  (∑ c : Fin 256, x (ix3 b t c) * wa (ix2 e c)) + ba (ix1 e)

/-- Scaled dot product of query row t with key row s in head h. -/
def score (b : Fin 64) (h : Fin 8) (t s : Fin 500) : EReal :=
  (∑ d : Fin 64, qkv x wa ba b t (qcol h d) * qkv x wa ba b s (kcol h d)) * Ideal.ofBits .f32 0x3E000000#32

/-- The largest score of query row t, folded from -∞. -/
def rowMax (b : Fin 64) (h : Fin 8) (t : Fin 500) : EReal :=
  (Finset.univ : Finset (Fin 500)).fold max (Ideal.ofBits .f32 0xFF800000#32) (fun s => score x wa ba b h t s)

/-- The unnormalised attention weight. -/
def weight (b : Fin 64) (h : Fin 8) (t s : Fin 500) : EReal :=
  Ideal.exp (score x wa ba b h t s - rowMax x wa ba b h t)

/-- The normaliser of query row t. -/
def denom (b : Fin 64) (h : Fin 8) (t : Fin 500) : EReal :=
  ∑ s : Fin 500, weight x wa ba b h t s

/-- Head output, value product first and one division after it. -/
def headK (b : Fin 64) (t : Fin 500) (h : Fin 8) (d : Fin 64) : EReal :=
  Ideal.div (∑ s : Fin 500, weight x wa ba b h t s * qkv x wa ba b s (vcol h d)) (denom x wa ba b h t)

/-- Head output, weights normalised first. -/
def headR (b : Fin 64) (t : Fin 500) (h : Fin 8) (d : Fin 64) : EReal :=
  ∑ s : Fin 500, Ideal.div (weight x wa ba b h t s) (denom x wa ba b h t) * qkv x wa ba b s (vcol h d)

/-- The output projection of the heads laid side by side. -/
def proj (y : Fin 64 → Fin 500 → Fin 8 → Fin 64 → EReal) (b : Fin 64) (t : Fin 500) (f : Fin 512) : EReal :=
  (∑ e : Fin 512, y b t (headOf e) (dimOf e) * wp (ix2 f e)) + bp (ix1 f)

/-- The whole result in the first arrangement. -/
def outK : SO.Idx → EReal := fun i => proj wp bp (headK x wa ba) (i 0) (i 1) (i 2)

/-- The whole result in the second arrangement. -/
def outR : SO.Idx → EReal := fun i => proj wp bp (headR x wa ba) (i 0) (i 1) (i 2)

end

end Cert.Attn

end
-- ==== Proof.AttnFn.lean ====
/-
  One attention head as a function of three families of real-valued coordinates: queries qf t d, keys kf s d and values
  vf s d (500 rows of 64). Entry (t, d) of its output is
      (Σ_s exp (S t s - max_s' S t s') · vf s d) / (Σ_s exp (S t s - max_s' S t s')),   S t s = (Σ_d' qf t d' · kf s d') · 1/8,
  the maximum folded from -∞. The specification's first arrangement of a head is this function of the fused projection's
  query, key and value columns of that head.
-/
import proofs.«103506_j85375359910650_2_alg».proof.Proof.Spec

noncomputable section

open scoped BigOperators

namespace Cert.Attn

open Idealize.ShloMosaic Idealize.ShloMosaic.ValueIdx

/-- The head's output entry from its queries, keys and values by coordinates. -/
def attn (qf kf vf : Fin 500 → Fin 64 → EReal) (t : Fin 500) (d : Fin 64) : EReal :=
  Ideal.div
    (∑ s : Fin 500,
      Ideal.exp ((∑ d' : Fin 64, qf t d' * kf s d') * Ideal.ofBits .f32 0x3E000000#32
        - (Finset.univ : Finset (Fin 500)).fold max (Ideal.ofBits .f32 0xFF800000#32)
            (fun s' => (∑ d' : Fin 64, qf t d' * kf s' d') * Ideal.ofBits .f32 0x3E000000#32)) * vf s d)
    (∑ s : Fin 500,
      Ideal.exp ((∑ d' : Fin 64, qf t d' * kf s d') * Ideal.ofBits .f32 0x3E000000#32
        - (Finset.univ : Finset (Fin 500)).fold max (Ideal.ofBits .f32 0xFF800000#32)
            (fun s' => (∑ d' : Fin 64, qf t d' * kf s' d') * Ideal.ofBits .f32 0x3E000000#32)))

/-- The specification's head, value product first, is `attn` of that head's columns of the fused projection. -/
theorem headK_eq_attn (x : SX.Idx → EReal) (wa : SWA.Idx → EReal) (ba : SBA.Idx → EReal)
    (b : Fin 64) (t : Fin 500) (h : Fin 8) (d : Fin 64) :
    headK x wa ba b t h d
      = attn (fun t d => qkv x wa ba b t (qcol h d)) (fun s d => qkv x wa ba b s (kcol h d))
          (fun s d => qkv x wa ba b s (vcol h d)) t d := rfl

end Cert.Attn

end
-- ==== Proof.RegionSpec.lean ====
/-
  What each of the kernel's two regions leaves in its output array, as one function of the region's three operand arrays.

  Region 0 (the fused projection): for a : [32000, 256], w : [256, 1536], b : [1, 1536],
      lin0 a w b (p, q) = Σ_c a (p, c) · w (c, q) + b (0, q).
  Region 1 (attention and the output projection, one batch element per grid point): for g : [nb, 500, 1536] (queries, keys
  and values side by side), wT : [512, 512], b1 : [1, 512],
      attn1 g wT b1 (b, t, f) = Σ_e head (b, t, e) · wT (e, f) + b1 (0, f),
  where head (b, t, e) is the attention output of head e / 64 at coordinate e % 64, computed from row-block b of g.
-/
import proofs.«103506_j85375359910650_2_alg».proof.KernelIdeal
import proofs.«103506_j85375359910650_2_alg».proof.Proof.AttnFn

noncomputable section

open scoped BigOperators

namespace Cert.Attn.Ker

open Cert.KernelIdeal Idealize.ShloMosaic Idealize.ShloMosaic.ValueIdx Cert.Attn

/-- Entry (p, q) of region 0's result. -/
def lin0At (a : S32000x256.Idx → EReal) (w : S256x1536.Idx → EReal) (b : S1x1536.Idx → EReal)
    (p : Fin 32000) (q : Fin 1536) : EReal :=
  (∑ c : Fin 256, a (ix2 p c) * w (ix2 c q)) + b (ix2 (0 : Fin 1) q)

/-- Region 0's result array. -/
def lin0 (a : S32000x256.Idx → EReal) (w : S256x1536.Idx → EReal) (b : S1x1536.Idx → EReal) : S32000x1536.Idx → EReal :=
  fun j => lin0At a w b (j 0) (j 1)

/-- Entry (b, t, f) of region 1's result, from an array of `nb` row-blocks. -/
def attn1At {nb : Nat} (g : (⟨3, ![nb, 500, 1536]⟩ : Shape).Idx → EReal) (wT : S512x512.Idx → EReal) (b1 : S1x512.Idx → EReal)
    (b : Fin nb) (t : Fin 500) (f : Fin 512) : EReal :=
  (∑ e : Fin 512,
      attn (fun t d => g (ix3 b t (qcol (headOf e) d))) (fun s d => g (ix3 b s (kcol (headOf e) d)))
        (fun s d => g (ix3 b s (vcol (headOf e) d))) t (dimOf e) * wT (ix2 e f))
    + b1 (ix2 (0 : Fin 1) f)

/-- Region 1's result array. -/
def attn1 (g : S64x500x1536.Idx → EReal) (wT : S512x512.Idx → EReal) (b1 : S1x512.Idx → EReal) : S64x500x512.Idx → EReal :=
  fun i => attn1At g wT b1 (i 0) (i 1) (i 2)

end Cert.Attn.Ker

end
-- ==== Proof.Region0.lean ====
/-
  Region 0, from blocks to the array. Each of the 40 grid points reads rows 800·t … 800·t + 799 of the input, the whole
  weight and the whole bias row, and writes back the same rows of the result; what it writes back is that block of
  the one function lin0 of the three operand arrays, and the 40 blocks cover the result array, so the array ends
  holding lin0 of the operands.
-/
import proofs.«103506_j85375359910650_2_alg».proof.Proof.Payload0
import proofs.«103506_j85375359910650_2_alg».proof.Proof.RegionSpec
import proofs.«103506_j85375359910650_2_alg».proof.Proof.Gen.KernelIdeal.Frame
import Idealize.ShloMosaic.Lib.Pipeline.Value

noncomputable section

open scoped BigOperators

namespace Cert.Attn.Ker

open Cert.KernelIdeal Cert.KernelIdeal.Gen Idealize.ShloMosaic Idealize.ShloMosaic.TcCoe Idealize.ShloMosaic.ValueIdx
open Idealize.SL.Sem

variable (V : (c : Dev nD) → (b : Ref sig .tc) → Buf (Elt Ideal) ((c : Thread nD τ).loc b))

/-- The zero offsets of a whole-block access. -/
theorem origin2 : (![0, 0] : Fin 2 → Nat) = fun _ => 0 := funext fun a => by fin_cases a <;> rfl

/-- The printed index maps, decided over the 40 grid points: the input rows and the result rows move with the point,
    every other block index is 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- There are 40 grid points. -/
theorem points_eq : cfg0.N = 40 := by decide

/-- Row p of point t's block is row 800·t + p of the array. -/
def rowOf (t : Fin cfg0.N) (p : Fin 800) : Fin 32000 :=
  ⟨t.val * 800 + p.val, by have := t.isLt; have := points_eq; have := p.isLt; omega⟩

/-- The block of input rows at point t, at (p, k), is the input at (800·t + p, k). -/
theorem rows_read (c : Dev nD) (t : Fin cfg0.N) (p : Fin 800) (k : Fin 256) :
    iblk0 V c 0 t (ix2 p k) = V c main_v0 (ix2 (rowOf t p) k) := by
  obtain ⟨e00, e01, -⟩ := block_index t
  show V c main_v0 (((cfg0.win 0).blk t).view.emb (ix2 p k)) = _
  refine congrArg (V c main_v0) (funext fun a => Fin.ext ?_)
  match a with
  | ⟨0, _⟩ => show win0_0.index t (0 : Fin 2) * 800 + 1 * p.val = t.val * 800 + p.val; omega
  | ⟨1, _⟩ => show win0_0.index t (1 : Fin 2) * 256 + 1 * k.val = k.val; omega

/-- The weight's block at any point is the whole weight. -/
theorem weight_read (c : Dev nD) (t : Fin cfg0.N) (k : Fin 256) (q : Fin 1536) :
    iblk0 V c 1 t (ix2 k q) = V c main_v1 (ix2 k q) := by
  obtain ⟨-, -, e10, e11, -⟩ := block_index t
  show V c main_v1 (((cfg0.win 1).blk t).view.emb (ix2 k q)) = _
  refine congrArg (V c main_v1) (funext fun a => Fin.ext ?_)
  match a with
  | ⟨0, _⟩ => show win0_1.index t (0 : Fin 2) * 256 + 1 * k.val = k.val; omega
  | ⟨1, _⟩ => show win0_1.index t (1 : Fin 2) * 1536 + 1 * q.val = q.val; omega

/-- The bias row's block at any point is the whole bias row. -/
theorem bias_read (c : Dev nD) (t : Fin cfg0.N) (q : Fin 1536) :
    iblk0 V c 2 t (ix2 (0 : Fin 1) q) = V c main_v2 (ix2 (0 : Fin 1) q) := by
  obtain ⟨-, -, -, -, e20, e21, -⟩ := block_index t
  show V c main_v2 (((cfg0.win 2).blk t).view.emb (ix2 (0 : Fin 1) q)) = _
  refine congrArg (V c main_v2) (funext fun a => Fin.ext ?_)
  match a with
  | ⟨0, _⟩ => show win0_2.index t (0 : Fin 2) * 1 + 1 * 0 = 0; omega
  | ⟨1, _⟩ => show win0_2.index t (1 : Fin 2) * 1536 + 1 * q.val = q.val; omega

/-- Entry (p, q) of the result's block at point t is entry (800·t + p, q) of the result array. -/
theorem result_emb (t : Fin cfg0.N) (p : Fin 800) (q : Fin 1536) :
    ((cfg0.win 3).blk t).view.emb (ix2 p q) = (ix2 (rowOf t p) q : S32000x1536.Idx) := by
  obtain ⟨-, -, -, -, -, -, e30, e31⟩ := block_index t
  refine funext fun a => Fin.ext ?_
  match a with
  | ⟨0, _⟩ => show win0_3.index t (0 : Fin 2) * 800 + 1 * p.val = t.val * 800 + p.val; omega
  | ⟨1, _⟩ => show win0_3.index t (1 : Fin 2) * 1536 + 1 * q.val = q.val; omega

/-- The result function at an entry. -/
theorem lin0_apply (a : S32000x256.Idx → EReal) (w : S256x1536.Idx → EReal) (b : S1x1536.Idx → EReal)
    (P : Fin 32000) (q : Fin 1536) :
    lin0 a w b (ix2 P q) = (∑ k : Fin 256, a (ix2 P k) * w (ix2 k q)) + b (ix2 (0 : Fin 1) q) := rfl

/-- What point t writes back is block t of lin0 of the operand arrays as the region finds them. -/
theorem flushed_eq (c : Dev nD) (t : Fin cfg0.N) :
    (dat0 (F := Ideal) V c).flushed 3 t
      = ((cfg0.win 3).blk t).view.read (Elt Ideal) (lin0 (V c main_v0) (V c main_v1) (V c main_v2)) := by
  show (cfg0.win 3).cut (grid0.coords t) ((dat0 V c).after 3 t) = _
  rw [after0_3]
  unfold out0_3
  rw [View.canon_unit_zero origin2]
  simp only [View.ld_unit_zero (S := S800x256) origin2, View.ld_unit_zero (S := S256x1536) origin2,
    View.ld_unit_zero (S := S1x1536) origin2]
  funext j
  obtain ⟨p, q, rfl⟩ : ∃ (p : Fin 800) (q : Fin 1536), j = ix2 p q := ⟨j 0, j 1, eq_ix2 j⟩
  show k0_pay1 (iblk0 V c 0 t) (iblk0 V c 1 t) (iblk0 V c 2 t) (ix2 p q)
    = lin0 (V c main_v0) (V c main_v1) (V c main_v2) (((cfg0.win 3).blk t).view.emb (ix2 p q))
  rw [result_emb]
  refine (pay0_apply (iblk0 V c 0 t) (iblk0 V c 1 t) (iblk0 V c 2 t) p q).trans ?_
  refine Eq.trans ?_ (lin0_apply (V c main_v0) (V c main_v1) (V c main_v2) (rowOf t p) q).symm
  refine congrArg₂ (fun a b : EReal => a + b) (Finset.sum_congr rfl fun k _ => ?_) (bias_read V c t q)
  exact congrArg₂ (fun a b : EReal => a * b) (rows_read V c t p k) (weight_read V c t k q)

/-- An index of the result array is in point t's block iff each coordinate is in the block's range on its axis. -/
theorem mem_blk (t : Fin cfg0.N) (i : S32000x1536.Idx) :
    i ∈ ((cfg0.win 3).blk t).view.set ↔ ∀ a : Fin 2, win0_3.index t a * S800x1536.size a ≤ (i a).val
      ∧ (i a).val < win0_3.index t a * S800x1536.size a + S800x1536.size a := by
  show i ∈ ((View.whole main_v3).slice (win0_3.rect t)).set ↔ _
  rw [View.set_slice_whole, Rect.mem_set_unit]
  exact Iff.rfl

/-- The 40 blocks cover the result array: row r is in the block of point r / 800. -/
theorem cover (i : S32000x1536.Idx) :
    ∃ t : Fin cfg0.N, (cfg0.win 3).flush t = true ∧ i ∈ ((cfg0.win 3).blk t).view.set := by
  have hi0 : (i 0).val < 32000 := (i 0).isLt
  have hi1 : (i 1).val < 1536 := (i 1).isLt
  obtain ⟨t, ht⟩ : ∃ t : Fin cfg0.N, t.val = (i 0).val / 800 :=
    ⟨⟨(i 0).val / 800, by have := points_eq; omega⟩, rfl⟩
  obtain ⟨-, -, -, -, -, -, e30, e31⟩ := block_index t
  refine ⟨t, flush0_3 t, ?_⟩
  rw [mem_blk]
  intro a
  match a with
  | ⟨0, _⟩ =>
    show win0_3.index t (0 : Fin 2) * 800 ≤ (i 0).val ∧ (i 0).val < win0_3.index t (0 : Fin 2) * 800 + 800
    omega
  | ⟨1, _⟩ =>
    show win0_3.index t (1 : Fin 2) * 1536 ≤ (i 1).val ∧ (i 1).val < win0_3.index t (1 : Fin 2) * 1536 + 1536
    omega

/-- The result array after the region: lin0 of the three operand arrays. -/
theorem region0_final (c : Dev nD) :
    (dat0 (F := Ideal) V c).arrAt 3 cfg0.N = lin0 (V c main_v0) (V c main_v1) (V c main_v2) :=
  (dat0 (F := Ideal) V c).arrAt_eq_of_cover 3 (lin0 (V c main_v0) (V c main_v1) (V c main_v2))
    (fun t _ => flushed_eq V c t) cover

end Cert.Attn.Ker

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.LibSlice2.lean ====
/-
  A unit-stride slice of a rank-2 array read at a pair of coordinates: entry (p, q) of the slice that starts at
  (o₀, o₁) is entry (o₀ + p, o₁ + q) of the array.
-/
import Idealize.ShloMosaic.Lib.Pipeline.Value
import Idealize.ShloMosaic.Lib.ValueIdx

namespace Cert.LibSlice2

open Idealize.ShloMosaic Idealize.ShloMosaic.ValueIdx

/-- Entry `(p, q)` of the slice at offsets `(o₀, o₁)` is entry `(o₀ + p, o₁ + q)` of the array. -/
theorem slice2_apply {α : Type} {m n m' n' : ℕ} (o₀ o₁ : ℕ) (x : (⟨2, ![m, n]⟩ : Shape).Idx → α)
    (h : (⟨2, ![m, n]⟩ : Shape).Slices ![o₀, o₁] ⟨2, ![m', n']⟩) (p : Fin m') (q : Fin n')
    (hp : o₀ + p.val < m) (hq : o₁ + q.val < n) :
    extractStridedSlice ⟨2, ![m', n']⟩ ![o₀, o₁] x h (ix2 p q) = x (ix2 ⟨o₀ + p.val, hp⟩ ⟨o₁ + q.val, hq⟩) :=
  extractStridedSlice_apply _ x h _ _ fun a => by
    match a with
    | ⟨0, _⟩ => rfl
    | ⟨1, _⟩ => rfl

end Cert.LibSlice2
-- ==== Proof.Head.lean ====
/-
  One attention head as the kernel body computes it, and its reading at an entry on the extended reals.

  For 500×64 blocks q, k, v (one head's queries, keys and values):
    S = (q · kᵀ) · 1/8                       (500×500 scores)
    M t = max_s S t s, folded from -∞        (row maxima)
    E t s = exp (S t s - M t)
    out t d = (Σ_s E t s · v s d) / (Σ_s E t s)
  The body repeats this eight times, once per head, on 64-column slices of the query, key and value thirds; every
  repetition is this one function of its three slices.
-/
import proofs.«103506_j85375359910650_2_alg».proof.Proof.Gen.KernelIdeal.Skeleton
import proofs.«103506_j85375359910650_2_alg».proof.Proof.LibPlainDot
import proofs.«103506_j85375359910650_2_alg».proof.Proof.LibKeepdims
import proofs.«103506_j85375359910650_2_alg».proof.Proof.LibSlice2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Attn.Ker

open Cert.KernelIdeal Cert.KernelIdeal.Gen Idealize.ShloMosaic Idealize.ShloMosaic.ValueIdx

section Body
variable {F : FTy → Type} [FloatOps F]

/-- The scaled scores of a head: (q · kᵀ) · 1/8. -/
def scoreVec (q k : FVec F S500x64 .bf16) : FVec F S500x500 .f32 :=
  mulf (matmul dot_S500x64_S64x500_S500x500_1_0_0_1_n_n none q (transpose S64x500 [1, 0] k transposes_S500x64_p1_0_S64x500)
      (constant S500x500 .f32 0x00000000#32))
    (broadcast S500x500 (Scalar.ofBits .f32 0x3E000000#32))

/-- The unnormalised weights: exp of each score less its row's maximum. -/
def expVec (q k : FVec F S500x64 .bf16) : FVec F S500x500 .f32 :=
  exp (subf (scoreVec q k)
    (broadcastTo S500x500
      (shapeCast S500x1 (multiReduction .maximumf [1] S500 (scoreVec q k) 0xFF800000#32 reduces_S500x500_S500 (.inl rfl) rfl)
        shapeCasts_S500_S500x1)
      broadcasts_S500x1_S500x500))

/-- The head's output: the weights against the values, each row divided by the row's sum of weights. -/
def headVec (q k v : FVec F S500x64 .bf16) : FVec F S500x64 .bf16 :=
  truncf .bf16
    (divf
      (matmul dot_S500x500_S500x64_S500x64_1_0_0_1_n_n none (truncf .bf16 (expVec q k) bitsLt_bf16_f32) v
        (constant S500x64 .f32 0x00000000#32))
      (broadcastTo S500x64
        (shapeCast S500x1 (multiReduction .add [1] S500 (expVec q k) 0x00000000#32 reduces_S500x500_S500 (.inl rfl) rfl)
          shapeCasts_S500_S500x1)
        broadcasts_S500x1_S500x64))
    bitsLt_bf16_f32

/-- The query, key and value thirds of a batch element's fused projection, and a head's 64 columns of a third. -/
abbrev qPart (v0 : Vec F S1x500x1536 .bf16) : FVec F S500x512 .bf16 := k1_pay3 v0
abbrev kPart (v0 : Vec F S1x500x1536 .bf16) : FVec F S500x512 .bf16 := k1_pay4 v0
abbrev vPart (v0 : Vec F S1x500x1536 .bf16) : FVec F S500x512 .bf16 := k1_pay5 v0

/-- Heads 0 … 6 as the body's pieces name them: each is `headVec` of its three slices. -/
theorem head0_eq (v0 : Vec F S1x500x1536 .bf16) :
    k1_pay6 v0 = headVec (extractStridedSlice S500x64 ![0, 0] (qPart v0) slices_S500x512_o0_0_S500x64)
      (extractStridedSlice S500x64 ![0, 0] (kPart v0) slices_S500x512_o0_0_S500x64)
      (extractStridedSlice S500x64 ![0, 0] (vPart v0) slices_S500x512_o0_0_S500x64) := rfl

theorem head1_eq (v0 : Vec F S1x500x1536 .bf16) :
    k1_pay7 v0 = headVec (extractStridedSlice S500x64 ![0, 64] (qPart v0) slices_S500x512_o0_64_S500x64)
      (extractStridedSlice S500x64 ![0, 64] (kPart v0) slices_S500x512_o0_64_S500x64)
      (extractStridedSlice S500x64 ![0, 64] (vPart v0) slices_S500x512_o0_64_S500x64) := rfl

theorem head2_eq (v0 : Vec F S1x500x1536 .bf16) :
    k1_pay11 (k1_pay8 v0) (k1_pay9 v0) (k1_pay10 v0)
      = headVec (extractStridedSlice S500x64 ![0, 128] (qPart v0) slices_S500x512_o0_128_S500x64)
      (extractStridedSlice S500x64 ![0, 128] (kPart v0) slices_S500x512_o0_128_S500x64)
      (extractStridedSlice S500x64 ![0, 128] (vPart v0) slices_S500x512_o0_128_S500x64) := rfl

theorem head3_eq (v0 : Vec F S1x500x1536 .bf16) :
    k1_pay12 (k1_pay3 v0) (k1_pay4 v0) (k1_pay5 v0)
      = headVec (extractStridedSlice S500x64 ![0, 192] (qPart v0) slices_S500x512_o0_192_S500x64)
      (extractStridedSlice S500x64 ![0, 192] (kPart v0) slices_S500x512_o0_192_S500x64)
      (extractStridedSlice S500x64 ![0, 192] (vPart v0) slices_S500x512_o0_192_S500x64) := rfl

theorem head4_eq (v0 : Vec F S1x500x1536 .bf16) :
    k1_pay15 (k1_pay13 (k1_pay5 v0)) (k1_pay14 (k1_pay3 v0) (k1_pay4 v0))
      = headVec (extractStridedSlice S500x64 ![0, 256] (qPart v0) slices_S500x512_o0_256_S500x64)
      (extractStridedSlice S500x64 ![0, 256] (kPart v0) slices_S500x512_o0_256_S500x64)
      (extractStridedSlice S500x64 ![0, 256] (vPart v0) slices_S500x512_o0_256_S500x64) := rfl

theorem head5_eq (v0 : Vec F S1x500x1536 .bf16) :
    k1_pay16 (k1_pay3 v0) (k1_pay4 v0) (k1_pay5 v0)
      = headVec (extractStridedSlice S500x64 ![0, 320] (qPart v0) slices_S500x512_o0_320_S500x64)
      (extractStridedSlice S500x64 ![0, 320] (kPart v0) slices_S500x512_o0_320_S500x64)
      (extractStridedSlice S500x64 ![0, 320] (vPart v0) slices_S500x512_o0_320_S500x64) := rfl

theorem head6_eq (v0 : Vec F S1x500x1536 .bf16) :
    k1_pay17 (k1_pay3 v0) (k1_pay4 v0) (k1_pay5 v0)
      = headVec (extractStridedSlice S500x64 ![0, 384] (qPart v0) slices_S500x512_o0_384_S500x64)
      (extractStridedSlice S500x64 ![0, 384] (kPart v0) slices_S500x512_o0_384_S500x64)
      (extractStridedSlice S500x64 ![0, 384] (vPart v0) slices_S500x512_o0_384_S500x64) := rfl

end Body

section AtIdeal

/-! ## The head at an entry, on the extended reals -/

/-- The scaled score of query row `t` against key row `s`. -/
def hScore (q k : FVec Ideal S500x64 .bf16) (t s : Fin 500) : EReal :=
  (∑ d : Fin 64, q (ix2 t d) * k (ix2 s d)) * Ideal.ofBits .f32 0x3E000000#32

/-- The row's largest score, folded from -∞. -/
def hMax (q k : FVec Ideal S500x64 .bf16) (t : Fin 500) : EReal :=
  (Finset.univ : Finset (Fin 500)).fold max (Ideal.ofBits .f32 0xFF800000#32) (fun s => hScore q k t s)

/-- The unnormalised weight. -/
def hExp (q k : FVec Ideal S500x64 .bf16) (t s : Fin 500) : EReal :=
  Ideal.exp (hScore q k t s - hMax q k t)

/-- The head's output entry: the weighted values over the sum of the weights. -/
def hOut (q k v : FVec Ideal S500x64 .bf16) (t : Fin 500) (d : Fin 64) : EReal :=
  Ideal.div (∑ s : Fin 500, hExp q k t s * v (ix2 s d)) (∑ s : Fin 500, hExp q k t s)

/-- The transposed keys at (d, s) are the keys at (s, d). -/
theorem transpose_keys_apply (k : FVec Ideal S500x64 .bf16) (d : Fin 64) (s : Fin 500) :
    transpose S64x500 [1, 0] k transposes_S500x64_p1_0_S64x500 (ix2 d s) = k (ix2 s d) :=
  transpose_apply [1, 0] k transposes_S500x64_p1_0_S64x500 (ix2 d s) (ix2 s d)
    (fun b => match b with | ⟨0, _⟩ => rfl | ⟨1, _⟩ => rfl)

theorem scoreVec_apply (q k : FVec Ideal S500x64 .bf16) (t s : Fin 500) :
    scoreVec q k (ix2 t s) = hScore q k t s := by
  unfold scoreVec hScore
  refine congrArg (· * Ideal.ofBits .f32 0x3E000000#32) ?_
  refine (Cert.LibPlainDot.matmul_plain_zero_apply 500 64 500 none q
    (transpose S64x500 [1, 0] k transposes_S500x64_p1_0_S64x500) t s).trans ?_
  exact Finset.sum_congr rfl fun d _ => congrArg (q (ix2 t d) * ·) (transpose_keys_apply k d s)

/-- Row `t` of a 500×500 array with the column coordinate `s` put back is the entry (t, s). -/
theorem lift_row (t s : Fin 500) :
    (reduces_S500x500_S500 : S500x500.Reduces [1] S500).lift (ix1 t) s = ix2 t s :=
  funext fun a => Fin.ext (match a with | ⟨0, _⟩ => rfl | ⟨1, _⟩ => rfl)

/-- A row maximum of a 500×500 array at row `t`: the fold of max from -∞ over the row. -/
theorem rowMax_apply (x : FVec Ideal S500x500 .f32) (t : Fin 500) :
    multiReduction .maximumf [1] S500 x 0xFF800000#32 reduces_S500x500_S500 (.inl rfl) rfl (ix1 t)
      = (Finset.univ : Finset (Fin 500)).fold max (Ideal.ofBits .f32 0xFF800000#32) (fun s => x (ix2 t s)) := by
  refine (Ideal.multiReduction_maximumf_single x 0xFF800000#32 reduces_S500x500_S500 (.inl rfl) rfl (ix1 t)).trans ?_
  exact congrArg (fun f => Finset.fold max (Ideal.ofBits .f32 0xFF800000#32) f (Finset.univ : Finset (Fin 500)))
    (funext fun s => congrArg x (lift_row t s))

/-- A row sum of a 500×500 array at row `t`. -/
theorem rowSum_apply (x : FVec Ideal S500x500 .f32) (t : Fin 500) :
    multiReduction .add [1] S500 x 0x00000000#32 reduces_S500x500_S500 (.inl rfl) rfl (ix1 t)
      = ∑ s : Fin 500, x (ix2 t s) := by
  refine (Ideal.multiReduction_add_single x 0x00000000#32 reduces_S500x500_S500 (.inl rfl) rfl (ix1 t)).trans ?_
  exact Finset.sum_congr rfl fun s _ => congrArg x (lift_row t s)

/-- A per-row vector kept as a column and spread along rows of length 500 reads the row's entry. -/
theorem keep500_apply (r : FVec Ideal S500 .f32) (t s : Fin 500) :
    broadcastTo S500x500 (shapeCast S500x1 r shapeCasts_S500_S500x1) broadcasts_S500x1_S500x500 (ix2 t s) = r (ix1 t) :=
  (broadcastTo_a1_ab_apply _ broadcasts_S500x1_S500x500 t s).trans (shapeCast_a_a1_apply r shapeCasts_S500_S500x1 t 0)

/-- The same along rows of length 64. -/
theorem keep64_apply (r : FVec Ideal S500 .f32) (t : Fin 500) (d : Fin 64) :
    broadcastTo S500x64 (shapeCast S500x1 r shapeCasts_S500_S500x1) broadcasts_S500x1_S500x64 (ix2 t d) = r (ix1 t) :=
  (broadcastTo_a1_ab_apply _ broadcasts_S500x1_S500x64 t d).trans (shapeCast_a_a1_apply r shapeCasts_S500_S500x1 t 0)

theorem expVec_apply (q k : FVec Ideal S500x64 .bf16) (t s : Fin 500) :
    expVec q k (ix2 t s) = hExp q k t s := by
  have h1 := scoreVec_apply q k t s
  have h2 : broadcastTo S500x500
      (shapeCast S500x1 (multiReduction .maximumf [1] S500 (scoreVec q k) 0xFF800000#32 reduces_S500x500_S500 (.inl rfl) rfl)
        shapeCasts_S500_S500x1) broadcasts_S500x1_S500x500 (ix2 t s) = hMax q k t :=
    (keep500_apply _ t s).trans ((rowMax_apply (scoreVec q k) t).trans
      (congrArg (fun f => Finset.fold max (Ideal.ofBits .f32 0xFF800000#32) f (Finset.univ : Finset (Fin 500)))
        (funext fun s' => scoreVec_apply q k t s')))
  exact congrArg₂ (fun a b => Ideal.exp (a - b)) h1 h2

/-- The head at entry (t, d). -/
theorem headVec_apply (q k v : FVec Ideal S500x64 .bf16) (t : Fin 500) (d : Fin 64) :
    headVec q k v (ix2 t d) = hOut q k v t d := by
  have h1 : matmul dot_S500x500_S500x64_S500x64_1_0_0_1_n_n none (truncf .bf16 (expVec q k) bitsLt_bf16_f32) v
      (constant S500x64 .f32 0x00000000#32) (ix2 t d) = ∑ s : Fin 500, hExp q k t s * v (ix2 s d) :=
    (Cert.LibPlainDot.matmul_plain_zero_apply 500 500 64 none (truncf .bf16 (expVec q k) bitsLt_bf16_f32) v t d).trans
      (Finset.sum_congr rfl fun s _ => congrArg (· * v (ix2 s d)) (expVec_apply q k t s))
  have h2 : broadcastTo S500x64
      (shapeCast S500x1 (multiReduction .add [1] S500 (expVec q k) 0x00000000#32 reduces_S500x500_S500 (.inl rfl) rfl)
        shapeCasts_S500_S500x1) broadcasts_S500x1_S500x64 (ix2 t d) = ∑ s : Fin 500, hExp q k t s :=
    (keep64_apply _ t d).trans ((rowSum_apply (expVec q k) t).trans
      (Finset.sum_congr rfl fun s _ => expVec_apply q k t s))
  exact congrArg₂ Ideal.div h1 h2

end AtIdeal

end Cert.Attn.Ker

end
-- ==== Proof.Payload1.lean ====
/-
  What region 1's body stores, read at an entry on the extended reals.

  From the loaded block x0 : [1, 500, 1536] of the fused projection (queries, keys, values side by side), the weights
  x1 : [512, 512] (already transposed) and the bias row x2 : [1, 512], the body stores, at (0, t, f),
      Σ_e head (t, e) · x1 (e, f) + x2 (0, f),
  where the 512 columns of `head` are the eight heads' outputs laid side by side: column e is head e / 64 at coordinate
  e % 64, and each head is the attention function of its 64 query, key and value columns of x0.
-/
import proofs.«103506_j85375359910650_2_alg».proof.Proof.Head
import proofs.«103506_j85375359910650_2_alg».proof.Proof.RegionSpec

noncomputable section

open scoped BigOperators

namespace Cert.Attn.Ker

open Cert.KernelIdeal Cert.KernelIdeal.Gen Idealize.ShloMosaic Idealize.ShloMosaic.ValueIdx Cert.Attn

section Body
variable {F : FTy → Type} [FloatOps F]

/-- The value the body stores, from its three loaded blocks. -/
def body1 (x0 : Vec F S1x500x1536 .bf16) (x1 : Vec F S512x512 .f32) (x2 : Vec F S1x512 .f32) : FVec F S1x500x512 .f32 :=
  k1_pay1 (k1_pay6 x0) (k1_pay7 x0) (k1_pay11 (k1_pay8 x0) (k1_pay9 x0) (k1_pay10 x0))
    (k1_pay12 (k1_pay3 x0) (k1_pay4 x0) (k1_pay5 x0)) (k1_pay15 (k1_pay13 (k1_pay5 x0)) (k1_pay14 (k1_pay3 x0) (k1_pay4 x0)))
    (k1_pay16 (k1_pay3 x0) (k1_pay4 x0) (k1_pay5 x0)) (k1_pay17 (k1_pay3 x0) (k1_pay4 x0) (k1_pay5 x0))
    (k1_pay18 (k1_pay3 x0)) (k1_pay19 (k1_pay4 x0)) (k1_pay20 (k1_pay5 x0)) x1 x2

/-- Head `n` of the block: the attention function of the block's 64 query, key and value columns at offset 64·n. -/
def headAt (x0 : Vec F S1x500x1536 .bf16) : Fin 8 → FVec F S500x64 .bf16
  | ⟨0, _⟩ => headVec (extractStridedSlice S500x64 ![0, 0] (qPart x0) slices_S500x512_o0_0_S500x64)
      (extractStridedSlice S500x64 ![0, 0] (kPart x0) slices_S500x512_o0_0_S500x64)
      (extractStridedSlice S500x64 ![0, 0] (vPart x0) slices_S500x512_o0_0_S500x64)
  | ⟨1, _⟩ => headVec (extractStridedSlice S500x64 ![0, 64] (qPart x0) slices_S500x512_o0_64_S500x64)
      (extractStridedSlice S500x64 ![0, 64] (kPart x0) slices_S500x512_o0_64_S500x64)
      (extractStridedSlice S500x64 ![0, 64] (vPart x0) slices_S500x512_o0_64_S500x64)
  | ⟨2, _⟩ => headVec (extractStridedSlice S500x64 ![0, 128] (qPart x0) slices_S500x512_o0_128_S500x64)
      (extractStridedSlice S500x64 ![0, 128] (kPart x0) slices_S500x512_o0_128_S500x64)
      (extractStridedSlice S500x64 ![0, 128] (vPart x0) slices_S500x512_o0_128_S500x64)
  | ⟨3, _⟩ => headVec (extractStridedSlice S500x64 ![0, 192] (qPart x0) slices_S500x512_o0_192_S500x64)
      (extractStridedSlice S500x64 ![0, 192] (kPart x0) slices_S500x512_o0_192_S500x64)
      (extractStridedSlice S500x64 ![0, 192] (vPart x0) slices_S500x512_o0_192_S500x64)
  | ⟨4, _⟩ => headVec (extractStridedSlice S500x64 ![0, 256] (qPart x0) slices_S500x512_o0_256_S500x64)
      (extractStridedSlice S500x64 ![0, 256] (kPart x0) slices_S500x512_o0_256_S500x64)
      (extractStridedSlice S500x64 ![0, 256] (vPart x0) slices_S500x512_o0_256_S500x64)
  | ⟨5, _⟩ => headVec (extractStridedSlice S500x64 ![0, 320] (qPart x0) slices_S500x512_o0_320_S500x64)
      (extractStridedSlice S500x64 ![0, 320] (kPart x0) slices_S500x512_o0_320_S500x64)
      (extractStridedSlice S500x64 ![0, 320] (vPart x0) slices_S500x512_o0_320_S500x64)
  | ⟨6, _⟩ => headVec (extractStridedSlice S500x64 ![0, 384] (qPart x0) slices_S500x512_o0_384_S500x64)
      (extractStridedSlice S500x64 ![0, 384] (kPart x0) slices_S500x512_o0_384_S500x64)
      (extractStridedSlice S500x64 ![0, 384] (vPart x0) slices_S500x512_o0_384_S500x64)
  | ⟨7, _⟩ => headVec (extractStridedSlice S500x64 ![0, 448] (qPart x0) slices_S500x512_o0_448_S500x64)
      (extractStridedSlice S500x64 ![0, 448] (kPart x0) slices_S500x512_o0_448_S500x64)
      (extractStridedSlice S500x64 ![0, 448] (vPart x0) slices_S500x512_o0_448_S500x64)
  | ⟨_ + 8, h⟩ => absurd h (Nat.not_lt.2 (Nat.le_add_left _ _))

/-- The heads side by side, as the list the concatenation takes. -/
abbrev headList (x0 : Vec F S1x500x1536 .bf16) : List ((s : Shape) × (s.Idx → F .bf16)) :=
  List.ofFn fun n : Fin 8 => (⟨S500x64, headAt x0 n⟩ : (s : Shape) × (s.Idx → F .bf16))

theorem headList_concatenates (x0 : Vec F S1x500x1536 .bf16) :
    Shape.Concatenates ((headList x0).map (·.1)) S500x512 1 :=
  concatenates_S500x64_S500x64_S500x64_S500x64_S500x64_S500x64_S500x64_S500x64_S500x512_d1

/-- The stored value is the heads, concatenated, against the weights, plus the bias row, viewed [1, 500, 512]. -/
theorem body1_eq (x0 : Vec F S1x500x1536 .bf16) (x1 : Vec F S512x512 .f32) (x2 : Vec F S1x512 .f32) :
    body1 x0 x1 x2
      = shapeCast S1x500x512
          (addf
            (matmul dot_S500x512_S512x512_S500x512_1_0_0_1_n_n none
              (concatenate S500x512 1 (headList x0) (headList_concatenates x0))
              (truncf .bf16 (shapeCast S512x512 x1 shapeCasts_S512x512_S512x512) bitsLt_bf16_f32)
              (constant S500x512 .f32 0x00000000#32))
            (broadcastTo S500x512 (shapeCast S1x512 x2 shapeCasts_S1x512_S1x512) broadcasts_S1x512_S500x512))
          shapeCasts_S500x512_S1x500x512 := rfl

end Body

section AtIdeal

/-! ## Reading at an entry -/

/-- The attention function of three 500×64 blocks is `attn` of their coordinates. -/
theorem hOut_eq_attn (q k v : FVec Ideal S500x64 .bf16) (t : Fin 500) (d : Fin 64) :
    hOut q k v t d = attn (fun t d => q (ix2 t d)) (fun s d => k (ix2 s d)) (fun s d => v (ix2 s d)) t d := rfl

/-- A 512-column third of the block, starting at column `o`, at (t, c) is the block at (0, t, o + c). -/
theorem third_apply (x0 : Vec Ideal S1x500x1536 .bf16) (o : Nat) (ho : S500x1536.Slices ![0, o] S500x512)
    (hb : o + 512 ≤ 1536) (t : Fin 500) (c : Fin 512) :
    extractStridedSlice S500x512 ![0, o] (k1_pay2 x0) ho (ix2 t c)
      = x0 (ix3 (0 : Fin 1) t ⟨o + c.val, by have := c.isLt; omega⟩) := by
  refine (Cert.LibSlice2.slice2_apply 0 o (k1_pay2 x0) ho t c (by have := t.isLt; omega) (by have := c.isLt; omega)).trans ?_
  refine (shapeCast_1ab_ab_apply x0 shapeCasts_S1x500x1536_S500x1536 _ _).trans (congrArg x0 ?_)
  funext a
  match a with
  | ⟨0, _⟩ => rfl
  | ⟨1, _⟩ => exact Fin.ext (Nat.zero_add _)
  | ⟨2, _⟩ => rfl

/-- 64 columns of a third, starting at `o'`, at (t, d) are the block at (0, t, o + (o' + d)). -/
theorem cols_apply (x0 : Vec Ideal S1x500x1536 .bf16) (o : Nat) (ho : S500x1536.Slices ![0, o] S500x512)
    (hb : o + 512 ≤ 1536) (o' : Nat) (ho' : S500x512.Slices ![0, o'] S500x64) (hb' : o' + 64 ≤ 512) (t : Fin 500) (d : Fin 64) :
    extractStridedSlice S500x64 ![0, o'] (extractStridedSlice S500x512 ![0, o] (k1_pay2 x0) ho) ho' (ix2 t d)
      = x0 (ix3 (0 : Fin 1) t ⟨o + (o' + d.val), by have := d.isLt; omega⟩) := by
  refine (Cert.LibSlice2.slice2_apply 0 o' _ ho' t d (by have := t.isLt; omega) (by have := d.isLt; omega)).trans ?_
  refine (third_apply x0 o ho hb _ _).trans (congrArg x0 ?_)
  funext a
  match a with
  | ⟨0, _⟩ => rfl
  | ⟨1, _⟩ => exact Fin.ext (Nat.zero_add _)
  | ⟨2, _⟩ => rfl

/-- The attention function of the block's columns at offset 64·n is `attn` of head n's columns of the block. -/
theorem headOfSlices_apply (x0 : Vec Ideal S1x500x1536 .bf16) (o : Nat) (ho : S500x512.Slices ![0, o] S500x64)
    (n : Fin 8) (hn : o = n.val * 64) (t : Fin 500) (d : Fin 64) :
    headVec (extractStridedSlice S500x64 ![0, o] (qPart x0) ho) (extractStridedSlice S500x64 ![0, o] (kPart x0) ho)
        (extractStridedSlice S500x64 ![0, o] (vPart x0) ho) (ix2 t d)
      = attn (fun t d => x0 (ix3 (0 : Fin 1) t (qcol n d))) (fun s d => x0 (ix3 (0 : Fin 1) s (kcol n d)))
          (fun s d => x0 (ix3 (0 : Fin 1) s (vcol n d))) t d := by
  have hb' : o + 64 ≤ 512 := by have := n.isLt; omega
  have hq : (fun (t : Fin 500) (d : Fin 64) => extractStridedSlice S500x64 ![0, o] (qPart x0) ho (ix2 t d))
      = fun t d => x0 (ix3 (0 : Fin 1) t (qcol n d)) :=
    funext fun t => funext fun d => (cols_apply x0 0 slices_S500x1536_o0_0_S500x512 (by omega) o ho hb' t d).trans
      (congrArg (fun e => x0 (ix3 (0 : Fin 1) t e)) (Fin.ext (by show 0 + (o + d.val) = n.val * 64 + d.val; omega)))
  have hk : (fun (s : Fin 500) (d : Fin 64) => extractStridedSlice S500x64 ![0, o] (kPart x0) ho (ix2 s d))
      = fun s d => x0 (ix3 (0 : Fin 1) s (kcol n d)) :=
    funext fun s => funext fun d => (cols_apply x0 512 slices_S500x1536_o0_512_S500x512 (by omega) o ho hb' s d).trans
      (congrArg (fun e => x0 (ix3 (0 : Fin 1) s e)) (Fin.ext (by show 512 + (o + d.val) = 512 + (n.val * 64 + d.val); omega)))
  have hv : (fun (s : Fin 500) (d : Fin 64) => extractStridedSlice S500x64 ![0, o] (vPart x0) ho (ix2 s d))
      = fun s d => x0 (ix3 (0 : Fin 1) s (vcol n d)) :=
    funext fun s => funext fun d => (cols_apply x0 1024 slices_S500x1536_o0_1024_S500x512 (by omega) o ho hb' s d).trans
      (congrArg (fun e => x0 (ix3 (0 : Fin 1) s e)) (Fin.ext (by show 1024 + (o + d.val) = 1024 + (n.val * 64 + d.val); omega)))
  refine (headVec_apply _ _ _ t d).trans ((hOut_eq_attn _ _ _ t d).trans ?_)
  rw [hq, hk, hv]

/-- Head `n` of the block at (t, d). -/
theorem headAt_apply (x0 : Vec Ideal S1x500x1536 .bf16) (n : Fin 8) (t : Fin 500) (d : Fin 64) :
    headAt x0 n (ix2 t d)
      = attn (fun t d => x0 (ix3 (0 : Fin 1) t (qcol n d))) (fun s d => x0 (ix3 (0 : Fin 1) s (kcol n d)))
          (fun s d => x0 (ix3 (0 : Fin 1) s (vcol n d))) t d :=
  match n with
  | ⟨0, _⟩ => headOfSlices_apply x0 0 slices_S500x512_o0_0_S500x64 ⟨0, by omega⟩ rfl t d
  | ⟨1, _⟩ => headOfSlices_apply x0 64 slices_S500x512_o0_64_S500x64 ⟨1, by omega⟩ rfl t d
  | ⟨2, _⟩ => headOfSlices_apply x0 128 slices_S500x512_o0_128_S500x64 ⟨2, by omega⟩ rfl t d
  | ⟨3, _⟩ => headOfSlices_apply x0 192 slices_S500x512_o0_192_S500x64 ⟨3, by omega⟩ rfl t d
  | ⟨4, _⟩ => headOfSlices_apply x0 256 slices_S500x512_o0_256_S500x64 ⟨4, by omega⟩ rfl t d
  | ⟨5, _⟩ => headOfSlices_apply x0 320 slices_S500x512_o0_320_S500x64 ⟨5, by omega⟩ rfl t d
  | ⟨6, _⟩ => headOfSlices_apply x0 384 slices_S500x512_o0_384_S500x64 ⟨6, by omega⟩ rfl t d
  | ⟨7, _⟩ => headOfSlices_apply x0 448 slices_S500x512_o0_448_S500x64 ⟨7, by omega⟩ rfl t d
  | ⟨_ + 8, h⟩ => absurd h (Nat.not_lt.2 (Nat.le_add_left _ _))

/-- The heads laid side by side, at (t, e): head e / 64 at coordinate e % 64. -/
theorem cat_apply (x0 : Vec Ideal S1x500x1536 .bf16) (t : Fin 500) (e : Fin 512) :
    concatenate S500x512 1 (headList x0) (headList_concatenates x0) (ix2 t e) = headAt x0 (headOf e) (ix2 t (dimOf e)) :=
  concatenate_ofFn_apply (t := S500x512) (s₁ := S500x64) (1 : Fin 2) (fun n : Fin 8 => headAt x0 n) (headList_concatenates x0) rfl 64 rfl (ix2 t e) (headOf e) rfl
    (ix2 t (dimOf e)) rfl (fun b hb => match b with | ⟨0, _⟩ => rfl | ⟨1, _⟩ => absurd rfl hb)

/-- THE STORED VALUE at (0, t, f): the heads against the weights, plus the bias. -/
theorem body1_apply (x0 : Vec Ideal S1x500x1536 .bf16) (x1 : Vec Ideal S512x512 .f32) (x2 : Vec Ideal S1x512 .f32)
    (t : Fin 500) (f : Fin 512) :
    body1 x0 x1 x2 (ix3 (0 : Fin 1) t f) = attn1At x0 x1 x2 (0 : Fin 1) t f := by
  refine (congrFun (body1_eq x0 x1 x2) _).trans ?_
  refine (shapeCast_ab_1ab_apply _ shapeCasts_S500x512_S1x500x512 (0 : Fin 1) t f).trans ?_
  unfold attn1At
  refine congrArg₂ (· + ·) ?_ ?_
  · refine (Cert.LibPlainDot.matmul_plain_zero_apply 500 512 512 none _ _ t f).trans ?_
    refine Finset.sum_congr rfl fun e _ => congrArg₂ (· * ·) ?_ ?_
    · exact (cat_apply x0 t e).trans (headAt_apply x0 (headOf e) t (dimOf e))
    · exact congrFun (shapeCast_self x1 shapeCasts_S512x512_S512x512) (ix2 e f)
  · exact (broadcastTo_1b_ab_apply _ broadcasts_S1x512_S500x512 t f).trans
      (congrFun (shapeCast_self x2 shapeCasts_S1x512_S1x512) _)

end AtIdeal

end Cert.Attn.Ker

end
-- ==== Proof.Region1.lean ====
/-
  Region 1, from blocks to the array: what grid point t writes back is block t of ONE whole-array function of the
  region's three operand arrays (`attn1`), and the 64 blocks, one batch element each, tile the result array.

  Point t reads block (t, 0, 0) of the fused projection — batch element t, all 500 rows, all 1536 columns —, the whole
  weight matrix and the whole bias row, and writes block (t, 0, 0) of the result: batch element t, all 500 rows, all 512
  columns. So entry (s, e) of the loaded block is entry (t, s, e) of the projection, and entry (0, p, q) of the stored
  block lands at (t, p, q).
-/
import proofs.«103506_j85375359910650_2_alg».proof.Proof.Payload1
import proofs.«103506_j85375359910650_2_alg».proof.Proof.Gen.KernelIdeal.Frame
import Idealize.ShloMosaic.Lib.Pipeline.Value

set_option maxRecDepth 16384

noncomputable section

open scoped BigOperators

namespace Cert.Attn.Ker

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The stored value at any index of the [1, 500, 512] block: its first coordinate is 0. -/
theorem body1_at (x0 : Vec Ideal S1x500x1536 .bf16) (x1 : Vec Ideal S512x512 .f32) (x2 : Vec Ideal S1x512 .f32)
    (j : S1x500x512.Idx) : body1 x0 x1 x2 j = attn1At x0 x1 x2 (0 : Fin 1) (j 1) (j 2) := by
  obtain ⟨u, p, q, rfl⟩ : ∃ (u : Fin 1) (p : Fin 500) (q : Fin 512), j = ix3 u p q := ⟨j 0, j 1, j 2, eq_ix3 j⟩
  have hu : u = 0 := Subsingleton.elim _ _
  subst hu
  exact body1_apply x0 x1 x2 p q

/-- The buffer after the body is the stored value: one store through the whole block. -/
theorem out1_3_eq (x0 : Vec Ideal S1x500x1536 .bf16) (x1 : Vec Ideal S512x512 .f32) (x2 : Vec Ideal S1x512 .f32) :
    out1_3 x0 x1 x2 = body1 x0 x1 x2 := by
  unfold out1_3
  rw [View.canon_unit_zero zeros3]
  simp only [View.ld_unit_zero (S := S1x500x1536) zeros3, View.ld_unit_zero (S := S512x512) zeros2,
    View.ld_unit_zero (S := S1x512) zeros2]
  rfl

/-- An entry of region 1's result depends on the projection only through row-block b: a block x0 that holds row-block b
    of G gives, at (0, t, f), what G gives at (b, t, f). -/
theorem attn1At_of_block (G : S64x500x1536.Idx → EReal) (x0 : S1x500x1536.Idx → EReal) (b : Fin 64)
    (hx : ∀ (s : Fin 500) (e : Fin 1536), x0 (ix3 (0 : Fin 1) s e) = G (ix3 b s e))
    (wT wT' : S512x512.Idx → EReal) (hw : wT = wT') (b1 b1' : S1x512.Idx → EReal) (hb : b1 = b1')
    (t : Fin 500) (f : Fin 512) :
    attn1At x0 wT b1 (0 : Fin 1) t f = attn1At G wT' b1' b t f := by
  subst hw
  subst hb
  unfold attn1At
  refine congrArg (· + b1 (ix2 (0 : Fin 1) f)) (Finset.sum_congr rfl fun e _ => congrArg (· * wT (ix2 e f)) ?_)
  have hq : (fun (t : Fin 500) (d : Fin 64) => x0 (ix3 (0 : Fin 1) t (qcol (headOf e) d)))
      = fun t d => G (ix3 b t (qcol (headOf e) d)) := funext fun t => funext fun d => hx t _
  have hk : (fun (s : Fin 500) (d : Fin 64) => x0 (ix3 (0 : Fin 1) s (kcol (headOf e) d)))
      = fun s d => G (ix3 b s (kcol (headOf e) d)) := funext fun s => funext fun d => hx s _
  have hv : (fun (s : Fin 500) (d : Fin 64) => x0 (ix3 (0 : Fin 1) s (vcol (headOf e) d)))
      = fun s d => G (ix3 b s (vcol (headOf e) d)) := funext fun s => funext fun d => hx s _
  rw [hq, hk, hv]

/-- The printed index maps over the 64 grid points: the projection's and the result's block index is (t, 0, 0), the
    weights' and the bias row's (0, 0). -/
theorem index_maps1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- WHAT POINT t WRITES BACK is block t of `attn1` of the operand arrays as the region finds them. -/
theorem flushed1_eq (c : Dev nD) (t : Fin cfg1.N) :
    (dat1 (F := Ideal) V c).flushed 3 t
      = ((cfg1.win 3).blk t).view.read (Elt Ideal) (attn1 (V c main_v4) (V c main_v5) (V c main_v6)) := by
  show (cfg1.win 3).cut (grid1.coords t) ((dat1 V c).after 3 t) = _
  rw [after1_3, out1_3_eq]
  obtain ⟨e00, e01, e02, e10, e11, e20, e21, e30, e31, e32⟩ := index_maps1 t
  have hN : cfg1.N = 64 := N_1
  have htN : t.val < 64 := hN ▸ t.isLt
  funext j
  show body1 (iblk1 V c 0 t) (iblk1 V c 1 t) (iblk1 V c 2 t) j
    = attn1 (V c main_v4) (V c main_v5) (V c main_v6) (((cfg1.win 3).blk t).view.emb j)
  refine (body1_at (iblk1 V c 0 t) (iblk1 V c 1 t) (iblk1 V c 2 t) j).trans ?_
  -- the weights and the bias row are whole arrays
  have h1 : (iblk1 V c 1 t : S512x512.Idx → EReal) = V c main_v5 := by
    funext y
    show V c main_v5 (((cfg1.win 1).blk t).view.emb y) = V c main_v5 y
    refine congrArg (V c main_v5) (funext fun a => Fin.ext ?_)
    match a with
    | ⟨0, _⟩ => show win1_1.index t (0 : Fin 2) * 512 + 1 * (y 0).val = (y 0).val; omega
    | ⟨1, _⟩ => show win1_1.index t (1 : Fin 2) * 512 + 1 * (y 1).val = (y 1).val; omega
  have h2 : (iblk1 V c 2 t : S1x512.Idx → EReal) = V c main_v6 := by
    funext y
    show V c main_v6 (((cfg1.win 2).blk t).view.emb y) = V c main_v6 y
    refine congrArg (V c main_v6) (funext fun a => Fin.ext ?_)
    match a with
    | ⟨0, _⟩ => show win1_2.index t (0 : Fin 2) * 1 + 1 * (y 0).val = (y 0).val; omega
    | ⟨1, _⟩ => show win1_2.index t (1 : Fin 2) * 512 + 1 * (y 1).val = (y 1).val; omega
  -- the loaded block is batch element t of the projection
  have h0 : ∀ (s : Fin 500) (e : Fin 1536),
      (iblk1 V c 0 t : S1x500x1536.Idx → EReal) (ix3 (0 : Fin 1) s e) = V c main_v4 (ix3 (⟨t.val, htN⟩ : Fin 64) s e) := by
    intro s e
    show V c main_v4 (((cfg1.win 0).blk t).view.emb (ix3 (0 : Fin 1) s e)) = _
    refine congrArg (V c main_v4) (funext fun a => Fin.ext ?_)
    match a with
    | ⟨0, _⟩ => show win1_0.index t (0 : Fin 3) * 1 + 1 * 0 = t.val; omega
    | ⟨1, _⟩ => show win1_0.index t (1 : Fin 3) * 500 + 1 * s.val = s.val; omega
    | ⟨2, _⟩ => show win1_0.index t (2 : Fin 3) * 1536 + 1 * e.val = e.val; omega
  refine (attn1At_of_block (V c main_v4) (iblk1 V c 0 t) ⟨t.val, htN⟩ h0 (iblk1 V c 1 t) (V c main_v5) h1
    (iblk1 V c 2 t) (V c main_v6) h2 (j 1) (j 2)).trans ?_
  -- the stored block lands at (t, p, q)
  have hj0 : (j 0).val < 1 := (j 0).isLt
  have ha : (((cfg1.win 3).blk t).view.emb j : S64x500x512.Idx) = ix3 (⟨t.val, htN⟩ : Fin 64) (j 1) (j 2) := by
    funext a
    refine Fin.ext ?_
    match a with
    | ⟨0, _⟩ => show win1_3.index t (0 : Fin 3) * 1 + 1 * (j 0).val = t.val; omega
    | ⟨1, _⟩ => show win1_3.index t (1 : Fin 3) * 500 + 1 * (j 1).val = (j 1).val; omega
    | ⟨2, _⟩ => show win1_3.index t (2 : Fin 3) * 512 + 1 * (j 2).val = (j 2).val; omega
  exact (congrArg (attn1 (V c main_v4) (V c main_v5) (V c main_v6)) ha).symm

/-- An index of the result is in point t's block iff each coordinate is in the block's range on its axis. -/
theorem mem_blk1 (t : Fin cfg1.N) (i : S64x500x512.Idx) :
    i ∈ ((cfg1.win 3).blk t).view.set
      ↔ ∀ a : Fin 3, win1_3.index t a * S1x500x512.size a ≤ (i a).val
          ∧ (i a).val < win1_3.index t a * S1x500x512.size a + S1x500x512.size a := by
  show i ∈ ((View.whole main_v7).slice (win1_3.rect t)).set ↔ _
  rw [View.set_slice_whole, Rect.mem_set_unit]
  exact Iff.rfl

/-- THE COVER: batch element b of the result is the block of grid point b. -/
theorem cover1 (i : S64x500x512.Idx) :
    ∃ t : Fin cfg1.N, (cfg1.win 3).flush t = true ∧ i ∈ ((cfg1.win 3).blk t).view.set := by
  have hN : cfg1.N = 64 := N_1
  have hi0 : (i 0).val < 64 := (i 0).isLt
  have hi1 : (i 1).val < 500 := (i 1).isLt
  have hi2 : (i 2).val < 512 := (i 2).isLt
  refine ⟨⟨(i 0).val, by omega⟩, flush1_3 _, ?_⟩
  rw [mem_blk1]
  obtain ⟨-, -, -, -, -, -, -, e30, e31, e32⟩ := index_maps1 ⟨(i 0).val, by omega⟩
  have e30' : win1_3.index (⟨(i 0).val, by omega⟩ : Fin cfg1.N) (0 : Fin 3) = (i 0).val := e30
  intro a
  match a with
  | ⟨0, _⟩ =>
    show win1_3.index _ (0 : Fin 3) * 1 ≤ (i 0).val ∧ (i 0).val < win1_3.index _ (0 : Fin 3) * 1 + 1
    omega
  | ⟨1, _⟩ =>
    show win1_3.index _ (1 : Fin 3) * 500 ≤ (i 1).val ∧ (i 1).val < win1_3.index _ (1 : Fin 3) * 500 + 500
    omega
  | ⟨2, _⟩ =>
    show win1_3.index _ (2 : Fin 3) * 512 ≤ (i 2).val ∧ (i 2).val < win1_3.index _ (2 : Fin 3) * 512 + 512
    omega

/-- THE ARRAY after region 1: `attn1` of the three operand arrays as the region finds them. -/
theorem region1_final (c : Dev nD) :
    (dat1 (F := Ideal) V c).arrAt 3 cfg1.N = attn1 (V c main_v4) (V c main_v5) (V c main_v6) :=
  (dat1 (F := Ideal) V c).arrAt_eq_of_cover 3 _ (fun t _ => flushed1_eq V c t) cover1

end Cert.Attn.Ker

end
-- ==== Proof.HostGlue.lean ====
/-
  The host operations around the two regions, each read at an index. Before the first region the input is reshaped
  from [64, 500, 256] to [32000, 256] (row b·500 + t of the result is row (b, t) of the input), the projection
  weight is transposed, and its bias gets a leading unit axis. Between the regions the first region's output is
  reshaped back from [32000, 1536] to [64, 500, 1536], the output weight is transposed and its bias gets a leading
  unit axis. No operation and no region writes an argument, so an argument read at either region's entry is the
  launch memory's.
-/
import proofs.«103506_j85375359910650_2_alg».proof.Proof.Gen.KernelIdeal.Frame
import Idealize.ShloMosaic.Lib.ValueLayout
import Idealize.ShloMosaic.Lib.Pipeline.Value

set_option maxRecDepth 16384

noncomputable section

namespace Cert.Attn.Ker

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-! ## Before the first region -/

/-- The reshaped input as a whole. -/
theorem V1_v0_eq : (V1 m ρ c main_v0 : S32000x256.Idx → F .f32)
    = shapeCast S32000x256 (m ((c : Thread nD τ).loc main_arg0) : S64x500x256.Idx → F .f32) shapeCasts_S64x500x256_S32000x256 := by
  dsimp only [V1, W1, hostOps0]
  after_results
  rfl

/-- Row b·500 + t of the reshaped input is row (b, t) of the input. -/
theorem V1_v0_at (b : Fin 64) (t : Fin 500) (k : Fin 256) :
    V1 m ρ c main_v0 (ix2 ⟨b.val * 500 + t.val, by have := b.isLt; have := t.isLt; omega⟩ k)
      = m ((c : Thread nD τ).loc main_arg0) (ix3 b t k) := by
  refine (congrFun (V1_v0_eq m ρ c) _).trans ?_
  refine shapeCast_apply _ _ _ _ ?_
  show (S64x500x256.rowMajor (ix3 b t k)).val = (S32000x256.rowMajor (ix2 ⟨b.val * 500 + t.val, _⟩ k)).val
  rw [Shape.rowMajor_val_three, Shape.rowMajor_val_two]
  rfl

/-- The transposed projection weight as a whole. -/
theorem V1_v1_eq : (V1 m ρ c main_v1 : S256x1536.Idx → F .f32)
    = transpose S256x1536 [1, 0] (m ((c : Thread nD τ).loc main_arg1) : S1536x256.Idx → F .f32) transposes_S1536x256_S256x1536_1_0 := by
  dsimp only [V1, W1, hostOps0]
  after_results

/-- Entry (k, e) of the transposed projection weight is entry (e, k) of the weight. -/
theorem V1_v1_at (k : Fin 256) (e : Fin 1536) :
    V1 m ρ c main_v1 (ix2 k e) = m ((c : Thread nD τ).loc main_arg1) (ix2 e k) :=
  (congrFun (V1_v1_eq m ρ c) _).trans (transpose_ix2_apply (a := 1536) (b := 256) _ _ k e)

/-- The projection bias with its leading unit axis, as a whole. -/
theorem V1_v2_eq : (V1 m ρ c main_v2 : S1x1536.Idx → F .f32)
    = shapeCast S1x1536 (m ((c : Thread nD τ).loc main_arg2) : S1536.Idx → F .f32) shapeCasts_S1536_S1x1536 := by
  dsimp only [V1, W1, hostOps0]
  after_results
  rfl

/-- Entry (0, e) of the projection bias as a row is entry e of the bias. -/
theorem V1_v2_at (e : Fin 1536) :
    V1 m ρ c main_v2 (ix2 (0 : Fin 1) e) = m ((c : Thread nD τ).loc main_arg2) (ix1 e) :=
  (congrFun (V1_v2_eq m ρ c) _).trans (shapeCast_a_1a_apply _ _ 0 e)

/-! ## Between the regions -/

/-- The output weight and bias at the first region's exit are the launch memory's: the first stretch of host
    operations writes neither, and neither is an array of the first region. -/
theorem W2_main_arg3 : W2 m ρ c (Proc.devRef .tc main_arg3) = m ((c : Thread nD τ).loc main_arg3) := by
  refine (W2_of_ne m ρ c main_arg3 (by decide)).trans ?_
  dsimp only [W1, hostOps0]
  after_results
theorem W2_main_arg4 : W2 m ρ c (Proc.devRef .tc main_arg4) = m ((c : Thread nD τ).loc main_arg4) := by
  refine (W2_of_ne m ρ c main_arg4 (by decide)).trans ?_
  dsimp only [W1, hostOps0]
  after_results

/-- The first region's output reshaped, as a whole. -/
theorem V3_v4_eq : (V3 m ρ c main_v4 : S64x500x1536.Idx → F .bf16)
    = shapeCast S64x500x1536 (V2 m ρ c main_v3 : S32000x1536.Idx → F .bf16) shapeCasts_S32000x1536_S64x500x1536 := by
  dsimp only [V3, W3, hostOps1]
  after_results
  rfl

/-- Row (b, t) of the reshaped output of the first region is its row b·500 + t. -/
theorem V3_v4_at (b : Fin 64) (t : Fin 500) (e : Fin 1536) :
    V3 m ρ c main_v4 (ix3 b t e)
      = V2 m ρ c main_v3 (ix2 ⟨b.val * 500 + t.val, by have := b.isLt; have := t.isLt; omega⟩ e) := by
  refine (congrFun (V3_v4_eq m ρ c) _).trans ?_
  refine shapeCast_apply _ _ _ _ ?_
  show (S32000x1536.rowMajor (ix2 ⟨b.val * 500 + t.val, _⟩ e)).val = (S64x500x1536.rowMajor (ix3 b t e)).val
  rw [Shape.rowMajor_val_three, Shape.rowMajor_val_two]
  rfl

/-- The transposed output weight as a whole. -/
theorem V3_v5_eq : (V3 m ρ c main_v5 : S512x512.Idx → F .f32)
    = transpose S512x512 [1, 0] (m ((c : Thread nD τ).loc main_arg3) : S512x512.Idx → F .f32) transposes_S512x512_S512x512_1_0 := by
  dsimp only [V3, W3, hostOps1]
  after_results
  rw [W2_main_arg3]

/-- Entry (e, f) of the transposed output weight is entry (f, e) of the weight. -/
theorem V3_v5_at (e f : Fin 512) :
    V3 m ρ c main_v5 (ix2 e f) = m ((c : Thread nD τ).loc main_arg3) (ix2 f e) :=
  (congrFun (V3_v5_eq m ρ c) _).trans (transpose_ix2_apply (a := 512) (b := 512) _ _ e f)

/-- The output bias with its leading unit axis, as a whole. -/
theorem V3_v6_eq : (V3 m ρ c main_v6 : S1x512.Idx → F .f32)
    = shapeCast S1x512 (m ((c : Thread nD τ).loc main_arg4) : S512.Idx → F .f32) shapeCasts_S512_S1x512 := by
  dsimp only [V3, W3, hostOps1]
  after_results
  rw [W2_main_arg4]
  rfl

/-- Entry (0, f) of the output bias as a row is entry f of the bias. -/
theorem V3_v6_at (f : Fin 512) :
    V3 m ρ c main_v6 (ix2 (0 : Fin 1) f) = m ((c : Thread nD τ).loc main_arg4) (ix1 f) :=
  (congrFun (V3_v6_eq m ρ c) _).trans (shapeCast_a_1a_apply _ _ 0 f)

end Cert.Attn.Ker

end
-- ==== Proof.KernelIsSpec.lean ====
/-
  The kernel's result array is the specification's first arrangement, `outK`, of the five argument arrays.

  Region 0 leaves the fused projection `lin0` of the reshaped input, the transposed weights and the bias row; read
  through the reshapes and the transpose around it, its entry (b·500 + t, e) is  Σ_c x[b,t,c] · W_a[e,c] + b_a[e]  — the
  specification's `qkv b t e`. Region 1 leaves `attn1` of that array viewed [64, 500, 1536], the transposed output weights
  and the output bias row: Σ_e head (b, t, e) · W_p[f, e] + b_p[f], each head the attention function of its query, key and
  value columns of the projection — the specification's `headK`.
-/
import proofs.«103506_j85375359910650_2_alg».proof.Proof.Region0
import proofs.«103506_j85375359910650_2_alg».proof.Proof.Region1
import proofs.«103506_j85375359910650_2_alg».proof.Proof.HostGlue

noncomputable section

open scoped BigOperators

namespace Cert.Attn.Ker

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (ρ : Dev nD → PrngReg)

/-- The fused projection as region 1 finds it, at (b, t, e). -/
theorem proj_entry (c : Dev nD) (b : Fin 64) (t : Fin 500) (e : Fin 1536) :
    V3 m ρ c main_v4 (ix3 b t e)
      = qkv (m ((c : Thread nD τ).loc main_arg0)) (m ((c : Thread nD τ).loc main_arg1)) (m ((c : Thread nD τ).loc main_arg2)) b t e := by
  refine (V3_v4_at m ρ c b t e).trans ?_
  have h3 : V2 m ρ c main_v3 = lin0 (V1 m ρ c main_v0) (V1 m ρ c main_v1) (V1 m ρ c main_v2) :=
    (W2_arr m ρ c 3).trans (region0_final (V1 m ρ) c)
  rw [h3]
  show lin0At (V1 m ρ c main_v0) (V1 m ρ c main_v1) (V1 m ρ c main_v2) _ e = _
  unfold lin0At qkv
  exact congrArg₂ (· + ·)
    (Finset.sum_congr rfl fun k _ => congrArg₂ (· * ·) (V1_v0_at m ρ c b t k) (V1_v1_at m ρ c k e))
    (V1_v2_at m ρ c e)

/-- THE KERNEL'S RESULT: the array region 1 leaves is `outK` of the arguments. -/
theorem kernel_value (c : Dev nD) :
    W4 m ρ c (Proc.devRef .tc main_v7)
      = outK (m ((c : Thread nD τ).loc main_arg0)) (m ((c : Thread nD τ).loc main_arg1)) (m ((c : Thread nD τ).loc main_arg2))
          (m ((c : Thread nD τ).loc main_arg3)) (m ((c : Thread nD τ).loc main_arg4)) := by
  refine ((W4_arr m ρ c 3).trans (region1_final (V3 m ρ) c)).trans ?_
  funext i
  obtain ⟨b, t, f, rfl⟩ : ∃ (b : Fin 64) (t : Fin 500) (f : Fin 512), i = ix3 b t f := ⟨i 0, i 1, i 2, eq_ix3 i⟩
  show attn1At (V3 m ρ c main_v4) (V3 m ρ c main_v5) (V3 m ρ c main_v6) b t f = proj _ _ (headK _ _ _) b t f
  unfold attn1At proj
  refine congrArg₂ (· + ·) (Finset.sum_congr rfl fun e _ => congrArg₂ (· * ·) ?_ (V3_v5_at m ρ c e f)) (V3_v6_at m ρ c f)
  rw [headK_eq_attn]
  have hq : (fun (t : Fin 500) (d : Fin 64) => V3 m ρ c main_v4 (ix3 b t (qcol (headOf e) d)))
      = fun t d => qkv (m ((c : Thread nD τ).loc main_arg0)) (m ((c : Thread nD τ).loc main_arg1))
          (m ((c : Thread nD τ).loc main_arg2)) b t (qcol (headOf e) d) :=
    funext fun t => funext fun d => proj_entry m ρ c b t _
  have hk : (fun (s : Fin 500) (d : Fin 64) => V3 m ρ c main_v4 (ix3 b s (kcol (headOf e) d)))
      = fun s d => qkv (m ((c : Thread nD τ).loc main_arg0)) (m ((c : Thread nD τ).loc main_arg1))
          (m ((c : Thread nD τ).loc main_arg2)) b s (kcol (headOf e) d) :=
    funext fun s => funext fun d => proj_entry m ρ c b s _
  have hv : (fun (s : Fin 500) (d : Fin 64) => V3 m ρ c main_v4 (ix3 b s (vcol (headOf e) d)))
      = fun s d => qkv (m ((c : Thread nD τ).loc main_arg0)) (m ((c : Thread nD τ).loc main_arg1))
          (m ((c : Thread nD τ).loc main_arg2)) b s (vcol (headOf e) d) :=
    funext fun s => funext fun d => proj_entry m ρ c b s _
  rw [hq, hk, hv]

end Cert.Attn.Ker

end
-- ==== Proof.RefStagesA.lean ====
/-
  The reference program read stage by stage, first part: the fused projection with its bias, its three thirds laid
  out by heads, and the scaled dot products of queries with keys. Each stage is read at explicit coordinates and
  identified with the matching function of the specification.
-/
import proofs.«103506_j85375359910650_2_alg».proof.Proof.Spec
import proofs.«103506_j85375359910650_2_alg».proof.Proof.Gen.ReferenceIdeal.Read

noncomputable section

open scoped BigOperators

namespace Cert.Attn.Ref

open Cert.ReferenceIdeal Cert.ReferenceIdeal.Read Idealize.ShloMosaic Idealize.ShloMosaic.ValueIdx

/-- The five argument arrays' types, as the generated stage functions take them. -/
abbrev TX : Type := (⟨S64x500x256, .f32⟩ : BufTy).Contents (Elt Ideal)
abbrev TWA : Type := (⟨S1536x256, .f32⟩ : BufTy).Contents (Elt Ideal)
abbrev TBA : Type := (⟨S1536, .f32⟩ : BufTy).Contents (Elt Ideal)
abbrev TWP : Type := (⟨S512x512, .f32⟩ : BufTy).Contents (Elt Ideal)
abbrev TBP : Type := (⟨S512, .f32⟩ : BufTy).Contents (Elt Ideal)

variable (x0 : TX) (x1 : TWA) (x2 : TBA)

/-- The fused projection plus its bias at (b, t, e): row (b, t) of the input against row e of the weight. -/
theorem qkv_at (b : Fin 64) (t : Fin 500) (e : Fin 1536) :
    val_main_v3 (F := Ideal) x0 x1 x2 (ix3 b t e) = qkv x0 x1 x2 b t e := by
  have el : ∀ k : Fin 256, lidx_main_v0 (ix3 b t e) k = ix3 b t k := fun k => funext fun a => by
    match a with
    | ⟨0, _⟩ => rfl
    | ⟨1, _⟩ => rfl
    | ⟨2, _⟩ => rfl
  have er : ∀ k : Fin 256, ridx_main_v0 (ix3 b t e) k = ix2 e k := fun k => funext fun a => by
    match a with
    | ⟨0, _⟩ => rfl
    | ⟨1, _⟩ => rfl
  have eb : idx_main_v1 (idx_main_v2 (ix3 b t e)) = ix1 e := funext fun a => by
    match a with
    | ⟨0, _⟩ => rfl
  rw [val_main_v3_apply, val_main_v0_apply, val_main_v2_apply, val_main_v1_apply, eb]
  simp only [el, er]
  rfl

/-- Splitting a column of one third into head and coordinate: the flat position of (b, t, h, d) in [64, 500, 8, 64]
    is the flat position of (b, t, h·64 + d) in [64, 500, 512]. -/
theorem flat_split (b t h d : Nat) (hb : b < 64) (ht : t < 500) (hh : h < 8) (hd : d < 64) :
    (((b * 500 + t) * 8 + h) * 64 + d) / 256000 = b ∧ (((b * 500 + t) * 8 + h) * 64 + d) / 512 % 500 = t
      ∧ (((b * 500 + t) * 8 + h) * 64 + d) % 512 = h * 64 + d := by
  omega

/-- The queries by heads: entry (b, h, t, d) is column h·64 + d of the projection's row (b, t). -/
theorem q_at (b : Fin 64) (h : Fin 8) (t : Fin 500) (d : Fin 64) :
    val_main_v8 (F := Ideal) x0 x1 x2 (ix4 b h t d) = qkv x0 x1 x2 b t (qcol h d) := by
  obtain ⟨f0, f1, f2⟩ := flat_split b.val t.val h.val d.val b.isLt t.isLt h.isLt d.isLt
  have e : idx_main_v4 (idx_main_v7 (idx_main_v8 (ix4 b h t d))) = ix3 b t (qcol h d) := funext fun a => Fin.ext (by
    match a with
    | ⟨0, _⟩ => exact f0
    | ⟨1, _⟩ => exact f1
    | ⟨2, _⟩ => exact f2)
  rw [val_main_v8_apply, val_main_v7_apply, val_main_v4_apply, e, qkv_at]

/-- The keys by heads: entry (b, h, s, d) is column 512 + h·64 + d of the projection's row (b, s). -/
theorem k_at (b : Fin 64) (h : Fin 8) (s : Fin 500) (d : Fin 64) :
    val_main_v10 (F := Ideal) x0 x1 x2 (ix4 b h s d) = qkv x0 x1 x2 b s (kcol h d) := by
  obtain ⟨f0, f1, f2⟩ := flat_split b.val s.val h.val d.val b.isLt s.isLt h.isLt d.isLt
  have e : idx_main_v5 (idx_main_v9 (idx_main_v10 (ix4 b h s d))) = ix3 b s (kcol h d) := funext fun a => Fin.ext (by
    match a with
    | ⟨0, _⟩ => exact f0
    | ⟨1, _⟩ => exact f1
    | ⟨2, _⟩ => exact congrArg (512 + ·) f2)
  rw [val_main_v10_apply, val_main_v9_apply, val_main_v5_apply, e, qkv_at]

/-- The values by heads: entry (b, h, s, d) is column 1024 + h·64 + d of the projection's row (b, s). -/
theorem v_at (b : Fin 64) (h : Fin 8) (s : Fin 500) (d : Fin 64) :
    val_main_v12 (F := Ideal) x0 x1 x2 (ix4 b h s d) = qkv x0 x1 x2 b s (vcol h d) := by
  obtain ⟨f0, f1, f2⟩ := flat_split b.val s.val h.val d.val b.isLt s.isLt h.isLt d.isLt
  have e : idx_main_v6 (idx_main_v11 (idx_main_v12 (ix4 b h s d))) = ix3 b s (vcol h d) := funext fun a => Fin.ext (by
    match a with
    | ⟨0, _⟩ => exact f0
    | ⟨1, _⟩ => exact f1
    | ⟨2, _⟩ => exact congrArg (1024 + ·) f2)
  rw [val_main_v12_apply, val_main_v11_apply, val_main_v6_apply, e, qkv_at]

/-- The scaled scores: the dot product over the 64 coordinates of a head, times one eighth. -/
theorem score_at (b : Fin 64) (h : Fin 8) (t s : Fin 500) :
    val_main_v15 (F := Ideal) x0 x1 x2 (ix4 b h t s) = score x0 x1 x2 b h t s := by
  have el : ∀ k : Fin 64, lidx_main_v13 (ix4 b h t s) k = ix4 b h t k := fun k => funext fun a => by
    match a with
    | ⟨0, _⟩ => rfl
    | ⟨1, _⟩ => rfl
    | ⟨2, _⟩ => rfl
    | ⟨3, _⟩ => rfl
  have er : ∀ k : Fin 64, ridx_main_v13 (ix4 b h t s) k = ix4 b h s k := fun k => funext fun a => by
    match a with
    | ⟨0, _⟩ => rfl
    | ⟨1, _⟩ => rfl
    | ⟨2, _⟩ => rfl
    | ⟨3, _⟩ => rfl
  rw [val_main_v15_apply, val_main_v13_apply, val_main_v14_apply, val_main_cst_apply]
  simp only [el, er, q_at, k_at]
  rfl

end Cert.Attn.Ref

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefStagesB.lean ====
/-
  The reference program read stage by stage, second part: the row maximum, the unnormalised weights, their sum, the
  normalised weights and the product with the values, each at explicit coordinates and identified with the matching
  function of the specification.
-/
import proofs.«103506_j85375359910650_2_alg».proof.Proof.RefStagesA
import proofs.«103506_j85375359910650_2_alg».proof.Proof.LibHostReduceMax

noncomputable section

open scoped BigOperators

namespace Cert.Attn.Ref

open Cert.ReferenceIdeal Cert.ReferenceIdeal.Read Idealize.ShloMosaic Idealize.ShloMosaic.ValueIdx

variable (x0 : TX) (x1 : TWA) (x2 : TBA)

/-- The word the maximum is folded from is −∞. -/
theorem negInf : Ideal.ofBits .f32 0xFF800000#32 = (⊥ : EReal) := by simp [Ideal.ofBits, Ideal.ieee]

/-- The maximum over the key axis, folded from −∞, at (b, h, t). -/
theorem fold_at (b : Fin 64) (h : Fin 8) (t : Fin 500) :
    val_main_v16 (F := Ideal) x0 x1 x2 (ix3 b h t)
      = (Finset.univ : Finset (Fin 500)).fold max ⊥ (fun s => score x0 x1 x2 b h t s) := by
  have hr : S64x8x500x500.Reduces [3] S64x8x500 := by decide
  have hinit : val_main_cst_0 (F := Ideal) (Shape.Idx.first Facts₀.h_S_) = ⊥ := negInf
  refine (Cert.ReferenceIdeal.RefValue.hostReduce_max_single (val_main_v15 (F := Ideal) x0 x1 x2)
    (val_main_cst_0 (F := Ideal)) Facts₀.reducesTo_S64x8x500x500_S64x8x500_d3 hr Facts₀.h_S_ (ix3 b h t) hinit).trans ?_
  show (Finset.univ : Finset (Fin 500)).fold max ⊥
    (fun k => val_main_v15 (F := Ideal) x0 x1 x2 (hr.lift (ix3 b h t) k)) = _
  refine congrArg (fun f : Fin 500 → EReal => Finset.fold max ⊥ f Finset.univ) (funext fun (s : Fin 500) => ?_)
  have e : hr.lift (ix3 b h t) s = (ix4 b h t s : S64x8x500x500.Idx) := funext fun a => Fin.ext (by
    match a with
    | ⟨0, _⟩ => rfl
    | ⟨1, _⟩ => rfl
    | ⟨2, _⟩ => rfl
    | ⟨3, _⟩ => rfl)
  exact (congrArg (val_main_v15 (F := Ideal) x0 x1 x2) e).trans (score_at x0 x1 x2 b h t s)

/-- The row maximum: the larger of −∞ and the fold from −∞ is the fold. -/
theorem rowMax_at (b : Fin 64) (h : Fin 8) (t : Fin 500) :
    val_main_v18 (F := Ideal) x0 x1 x2 (ix3 b h t) = rowMax x0 x1 x2 b h t := by
  rw [val_main_v18_apply, val_main_v17_apply, val_main_cst_1_apply, fold_at]
  unfold rowMax
  show max (Ideal.ofBits .f32 0xFF800000#32) _ = _
  rw [negInf]
  exact max_bot_left _

/-- The unnormalised weight: the exponential of the score less its row's maximum. -/
theorem weight_at (b : Fin 64) (h : Fin 8) (t s : Fin 500) :
    val_main_v22 (F := Ideal) x0 x1 x2 (ix4 b h t s) = weight x0 x1 x2 b h t s := by
  have e : idx_main_v19 (idx_main_v20 (ix4 b h t s)) = ix3 b h t := funext fun a => by
    match a with
    | ⟨0, _⟩ => rfl
    | ⟨1, _⟩ => rfl
    | ⟨2, _⟩ => rfl
  rw [val_main_v22_apply, val_main_v21_apply, val_main_v20_apply, val_main_v19_apply, e, rowMax_at, score_at]
  rfl

/-- The normaliser: zero plus the sum of a row's weights. -/
theorem denom_at (b : Fin 64) (h : Fin 8) (t : Fin 500) :
    val_main_v23 (F := Ideal) x0 x1 x2 (ix3 b h t) = denom x0 x1 x2 b h t := by
  have e : ∀ k : Fin 500, idx_main_v23 (ix3 b h t) k = ix4 b h t k := fun k => funext fun a => by
    match a with
    | ⟨0, _⟩ => rfl
    | ⟨1, _⟩ => rfl
    | ⟨2, _⟩ => rfl
    | ⟨3, _⟩ => rfl
  rw [val_main_v23_apply, val_main_cst_2_apply]
  simp only [e, weight_at]
  show Ideal.ofBits .f32 0x00000000#32 + _ = _
  rw [Ideal.ofBits_zero_f32, zero_add]
  rfl

/-- The normalised weight: the weight divided by its row's normaliser. -/
theorem soft_at (b : Fin 64) (h : Fin 8) (t s : Fin 500) :
    val_main_v26 (F := Ideal) x0 x1 x2 (ix4 b h t s)
      = Ideal.div (weight x0 x1 x2 b h t s) (denom x0 x1 x2 b h t) := by
  have e : idx_main_v24 (idx_main_v25 (ix4 b h t s)) = ix3 b h t := funext fun a => by
    match a with
    | ⟨0, _⟩ => rfl
    | ⟨1, _⟩ => rfl
    | ⟨2, _⟩ => rfl
  rw [val_main_v26_apply, val_main_v25_apply, val_main_v24_apply, e, denom_at, weight_at]
  rfl

/-- The head output, weights normalised first: the sum over keys of normalised weight times value. -/
theorem head_at (b : Fin 64) (h : Fin 8) (t : Fin 500) (d : Fin 64) :
    val_main_v27 (F := Ideal) x0 x1 x2 (ix4 b h t d) = headR x0 x1 x2 b t h d := by
  have el : ∀ k : Fin 500, lidx_main_v27 (ix4 b h t d) k = ix4 b h t k := fun k => funext fun a => by
    match a with
    | ⟨0, _⟩ => rfl
    | ⟨1, _⟩ => rfl
    | ⟨2, _⟩ => rfl
    | ⟨3, _⟩ => rfl
  have er : ∀ k : Fin 500, ridx_main_v27 (ix4 b h t d) k = ix4 b h k d := fun k => funext fun a => by
    match a with
    | ⟨0, _⟩ => rfl
    | ⟨1, _⟩ => rfl
    | ⟨2, _⟩ => rfl
    | ⟨3, _⟩ => rfl
  rw [val_main_v27_apply]
  simp only [el, er, soft_at, v_at]
  rfl

end Cert.Attn.Ref

end
-- ==== Proof.RefIsSpec.lean ====
/-
  The reference computes the specification's second arrangement: the heads laid side by side, the output projection
  with its bias, and the whole result as one function of the five argument arrays.
-/
import proofs.«103506_j85375359910650_2_alg».proof.Proof.RefStagesB

noncomputable section

open scoped BigOperators

namespace Cert.Attn.Ref

open Cert.ReferenceIdeal Cert.ReferenceIdeal.Read Idealize.ShloMosaic Idealize.ShloMosaic.ValueIdx

/-- Joining head and coordinate into one column: the flat position of (b, t, e) in [64, 500, 512] is the flat position
    of (b, t, e / 64, e % 64) in [64, 500, 8, 64]. -/
theorem flat_join (b t e : Nat) (hb : b < 64) (ht : t < 500) (he : e < 512) :
    ((b * 500 + t) * 512 + e) / 256000 = b ∧ ((b * 500 + t) * 512 + e) / 512 % 500 = t
      ∧ ((b * 500 + t) * 512 + e) / 64 % 8 = e / 64 ∧ ((b * 500 + t) * 512 + e) % 64 = e % 64 := by
  omega

/-- The heads side by side: column e of row (b, t) is head e / 64 at coordinate e % 64. -/
theorem concat_at (x0 : TX) (x1 : TWA) (x2 : TBA) (b : Fin 64) (t : Fin 500) (e : Fin 512) :
    val_main_v29 (F := Ideal) x0 x1 x2 (ix3 b t e) = headR x0 x1 x2 b t (headOf e) (dimOf e) := by
  obtain ⟨f0, f1, f2, f3⟩ := flat_join b.val t.val e.val b.isLt t.isLt e.isLt
  have ei : idx_main_v28 (idx_main_v29 (ix3 b t e)) = ix4 b (headOf e) t (dimOf e) := funext fun a => Fin.ext (by
    match a with
    | ⟨0, _⟩ => exact f0
    | ⟨1, _⟩ => exact f2
    | ⟨2, _⟩ => exact f1
    | ⟨3, _⟩ => exact f3)
  rw [val_main_v29_apply, val_main_v28_apply, ei, head_at]

/-- The reference's result is the specification's second arrangement. -/
theorem result_eq (x0 : TX) (x1 : TWA) (x2 : TBA) (x3 : TWP) (x4 : TBP) :
    val_main_v33 (F := Ideal) x0 x1 x2 x3 x4 = outR x0 x1 x2 x3 x4 := by
  funext i
  obtain ⟨b, t, f, rfl⟩ : ∃ (b : Fin 64) (t : Fin 500) (f : Fin 512), i = ix3 b t f := ⟨i 0, i 1, i 2, eq_ix3 i⟩
  have el : ∀ k : Fin 512, lidx_main_v30 (ix3 b t f) k = ix3 b t k := fun k => funext fun a => by
    match a with
    | ⟨0, _⟩ => rfl
    | ⟨1, _⟩ => rfl
    | ⟨2, _⟩ => rfl
  have er : ∀ k : Fin 512, ridx_main_v30 (ix3 b t f) k = ix2 f k := fun k => funext fun a => by
    match a with
    | ⟨0, _⟩ => rfl
    | ⟨1, _⟩ => rfl
  have eb : idx_main_v31 (idx_main_v32 (ix3 b t f)) = ix1 f := funext fun a => by
    match a with
    | ⟨0, _⟩ => rfl
  rw [val_main_v33_apply, val_main_v30_apply, val_main_v32_apply, val_main_v31_apply, eb]
  simp only [el, er, concat_at]
  rfl

end Cert.Attn.Ref

end
-- ==== Proof.LibErealDistrib.lean ====
/-
  Two general laws of the extended reals: subtracting from zero is negation; and a FINITE non-negative real factor
  distributes over any finite sum of extended reals — the summands may be infinite, of either sign: no finiteness
  hypothesis on them is needed (the general distributive law fails on the extended reals only when the factor is
  infinite or the summands are infinities of opposite signs scaled by a signed factor).
-/
import Mathlib.Data.EReal.Operations
import Mathlib.Data.EReal.Inv
import Mathlib.Algebra.BigOperators.Fin

noncomputable section

namespace Cert.LibErealDistrib

/-- Subtracting an extended real from zero negates it. -/
theorem zero_sub_eq_neg (x : EReal) : 0 - x = -x := by rw [sub_eq_add_neg, zero_add]

/-- A finite non-negative real factor on the right distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The same with the factor on the left. -/
theorem mul_sum_coe {ι : Type*} (s : Finset ι) (f : ι → EReal) {c : ℝ} (hc : 0 ≤ c) :
    (c : EReal) * (∑ i ∈ s, f i) = ∑ i ∈ s, (c : EReal) * f i := by
  rw [mul_comm, sum_mul_coe s f hc]
  exact Finset.sum_congr rfl fun i _ => mul_comm _ _

end Cert.LibErealDistrib

end
-- ==== Proof.LibRealClosure.lean ====
/-
  Real numbers inside the extended reals: the coercion of a finite sum, closure of "is a real number" (neither −∞ nor +∞)
  under sums and sums of products, and the one law of the extended reals' division used to trade a reciprocal for a
  quotient: `a · (1 / b) = a / b` off a zero divisor (at `b = 0 = a` the left side is `0`, the right side `−∞`).
-/
import Idealize.ShloMosaic.PureOps.Ideal

noncomputable section

namespace Cert.RealClosure

open Idealize.ShloMosaic

/-- Multiplying by the reciprocal is dividing, off a zero divisor. -/
theorem mul_div_one (a b : EReal) (hb : b ≠ 0) : a * Ideal.div 1 b = Ideal.div a b := by
  unfold Ideal.div; rw [if_neg hb, if_neg hb, one_mul]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is real. -/
theorem add_real {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  rw [← EReal.coe_add]
  exact ⟨EReal.coe_ne_bot _, EReal.coe_ne_top _⟩

/-- A finite sum of products of reals is real. -/
theorem sum_mul_real {ι : Type} (s : Finset ι) (f g : ι → EReal) (hf : ∀ i, f i ≠ ⊥ ∧ f i ≠ ⊤) (hg : ∀ i, g i ≠ ⊥ ∧ g i ≠ ⊤) :
    (∑ i ∈ s, f i * g i) ≠ ⊥ ∧ (∑ i ∈ s, f i * g i) ≠ ⊤ := by
  lift f to ι → ℝ using fun n => ⟨(hf n).2, (hf n).1⟩
  lift g to ι → ℝ using fun n => ⟨(hg n).2, (hg n).1⟩
  have : (∑ i ∈ s, (f i : EReal) * (g i : EReal)) = ((∑ i ∈ s, f i * g i : ℝ) : EReal) := by
    rw [coe_sum]; exact Finset.sum_congr rfl fun i _ => (EReal.coe_mul _ _).symm
  rw [this]
  exact ⟨EReal.coe_ne_bot _, EReal.coe_ne_top _⟩

end Cert.RealClosure

end
-- ==== Proof.Law.lean ====
/-
  The two arrangements of the attention head agree when the inputs of the fused projection are real numbers.

  With real x, W_a, b_a every entry of qkv is a real number (a finite sum of products of reals plus a real), so every
  score is a real number; the row maximum, a fold of max from -∞ over 500 real scores, is a real number; every weight
  exp (score - rowMax) is the exponential of a real number, a POSITIVE real; and the normaliser, a sum of 500 positive
  reals, is a positive real L. Dividing by L is multiplying by the non-negative real 1/L, at every extended real; a
  non-negative real factor distributes over any finite sum of extended reals; and the product is commutative and
  associative. So (Σ_s w_s · v_s) / L = Σ_s (w_s / L) · v_s, whatever the values v_s are.
-/
import proofs.«103506_j85375359910650_2_alg».proof.Proof.Spec
import proofs.«103506_j85375359910650_2_alg».proof.Proof.LibErealDistrib
import proofs.«103506_j85375359910650_2_alg».proof.Proof.LibRealClosure

noncomputable section

open scoped BigOperators

namespace Cert.Attn

open Idealize.ShloMosaic Idealize.ShloMosaic.ValueIdx

/-- An extended real that is a real number. -/
def IsR (a : EReal) : Prop := ∃ r : ℝ, a = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- The scale factor of the scores, the f32 word of 1/8, is a real number. -/
theorem scale_isR : IsR (Ideal.ofBits .f32 0x3E000000#32) := by
  refine ⟨(1 / 8 : ℝ), ?_⟩
  simp [Ideal.ofBits, Ideal.ieee]
  norm_cast
  norm_num

/-- The starting value of the row maximum, the f32 word of -∞. -/
theorem negInf_eq_bot : Ideal.ofBits .f32 0xFF800000#32 = (⊥ : EReal) := by
  simp [Ideal.ofBits, Ideal.ieee]

/-- A fold of max from -∞ over a nonempty family of real numbers is a real number. -/
theorem fold_max_isR {ι : Type} (s : Finset ι) (hs : s.Nonempty) (f : ι → EReal) (h : ∀ i, IsR (f i)) :
    IsR (s.fold max (⊥ : EReal) f) := by
  have hlt : s.fold max (⊥ : EReal) f < ⊤ := by
    rw [Finset.fold_max_lt]
    refine ⟨bot_lt_top, fun i _ => ?_⟩
    obtain ⟨r, hr⟩ := h i
    rw [hr]; exact EReal.coe_lt_top r
  have hgt : (⊥ : EReal) < s.fold max (⊥ : EReal) f := by
    rw [Finset.lt_fold_max]
    obtain ⟨i, hi⟩ := hs
    obtain ⟨r, hr⟩ := h i
    exact Or.inr ⟨i, hi, by rw [hr]; exact EReal.bot_lt_coe r⟩
  lift s.fold max (⊥ : EReal) f to ℝ using ⟨hlt.ne, hgt.ne'⟩ with m
  exact ⟨m, rfl⟩

section
variable (x : SX.Idx → EReal) (wa : SWA.Idx → EReal) (ba : SBA.Idx → EReal)
  (hx : ∀ i, ∃ r : ℝ, x i = (r : EReal)) (hwa : ∀ i, ∃ r : ℝ, wa i = (r : EReal))
  (hba : ∀ i, ∃ r : ℝ, ba i = (r : EReal))
include hx hwa hba

theorem qkv_isR (b : Fin 64) (t : Fin 500) (e : Fin 1536) : IsR (qkv x wa ba b t e) :=
  IsR.add (IsR.sum _ _ fun c => IsR.mul (hx _) (hwa _)) (hba _)

theorem score_isR (b : Fin 64) (h : Fin 8) (t s : Fin 500) : IsR (score x wa ba b h t s) :=
  IsR.mul (IsR.sum _ _ fun d => IsR.mul (qkv_isR x wa ba hx hwa hba b t _) (qkv_isR x wa ba hx hwa hba b s _)) scale_isR

theorem rowMax_isR (b : Fin 64) (h : Fin 8) (t : Fin 500) : IsR (rowMax x wa ba b h t) := by
  unfold rowMax
  rw [negInf_eq_bot]
  exact fold_max_isR _ ⟨(0 : Fin 500), Finset.mem_univ _⟩ _ fun s => score_isR x wa ba hx hwa hba b h t s

/-- Every weight is a positive real. -/
theorem weight_pos (b : Fin 64) (h : Fin 8) (t s : Fin 500) :
    ∃ w : ℝ, 0 < w ∧ weight x wa ba b h t s = (w : EReal) := by
  obtain ⟨a, ha⟩ := score_isR x wa ba hx hwa hba b h t s
  obtain ⟨m, hm⟩ := rowMax_isR x wa ba hx hwa hba b h t
  refine ⟨Real.exp (a - m), Real.exp_pos _, ?_⟩
  unfold weight
  rw [ha, hm, ← EReal.coe_sub]
  rfl

/-- The normaliser is a positive real. -/
theorem denom_pos (b : Fin 64) (h : Fin 8) (t : Fin 500) :
    ∃ L : ℝ, 0 < L ∧ denom x wa ba b h t = (L : EReal) := by
  choose w hw0 hw using fun s => weight_pos x wa ba hx hwa hba b h t s
  refine ⟨∑ s : Fin 500, w s, Finset.sum_pos (fun s _ => hw0 s) ⟨(0 : Fin 500), Finset.mem_univ _⟩, ?_⟩
  unfold denom
  rw [Cert.RealClosure.coe_sum]
  exact Finset.sum_congr rfl fun s _ => hw s

/-- The two arrangements of one head entry agree. -/
theorem headK_eq_headR (b : Fin 64) (t : Fin 500) (h : Fin 8) (d : Fin 64) :
    headK x wa ba b t h d = headR x wa ba b t h d := by
  obtain ⟨L, hL0, hL⟩ := denom_pos x wa ba hx hwa hba b h t
  unfold headK headR
  rw [hL, Ideal.div_coe hL0.ne', Cert.LibErealDistrib.sum_mul_coe _ _ (one_div_pos.mpr hL0).le]
  refine Finset.sum_congr rfl fun s _ => ?_
  rw [Ideal.div_coe hL0.ne', mul_right_comm]

end

/-- With real inputs of the fused projection the two arrangements of the whole result agree. -/
theorem outK_eq_outR (x : SX.Idx → EReal) (wa : SWA.Idx → EReal) (ba : SBA.Idx → EReal) (wp : SWP.Idx → EReal)
    (bp : SBP.Idx → EReal)
    (hx : ∀ i, ∃ r : ℝ, x i = (r : EReal)) (hwa : ∀ i, ∃ r : ℝ, wa i = (r : EReal))
    (hba : ∀ i, ∃ r : ℝ, ba i = (r : EReal)) :
    outK x wa ba wp bp = outR x wa ba wp bp := by
  have hh : headK x wa ba = headR x wa ba := by
    funext b t h d
    exact headK_eq_headR x wa ba hx hwa hba b t h d
  unfold outK outR
  rw [hh]

end Cert.Attn

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.Finite.lean ====
/-
  The printed precondition says, for each of the five argument arrays, all(|a| < +∞), the five conjoined. When it is 1,
  every entry of the first three arrays (the input and the weight and bias of the fused projection) is a real number:
  neither -∞ nor +∞.
-/
import proofs.«103506_j85375359910650_2_alg».proof.Pre_finite_inputs
import proofs.«103506_j85375359910650_2_alg».proof.Proof.LibFiniteEntries
import Idealize.ShloMosaic.Lib.ReduceAll

noncomputable section

namespace Cert.Attn

open Idealize.ShloMosaic Cert.Pre_finite_inputs

/-- An extended real that is neither infinity is the coercion of a real number. -/
theorem exists_real_of_ne {a : EReal} (h : a ≠ ⊥ ∧ a ≠ ⊤) : ∃ r : ℝ, a = (r : EReal) := by
  lift a to ℝ using ⟨h.2, h.1⟩
  exact ⟨a, rfl⟩

/-- The precondition makes every entry of the first three argument arrays a real number. -/
theorem real_of_pre (a0 : FVec Ideal S64x500x256 .f32) (a1 : FVec Ideal S1536x256 .f32) (a2 : FVec Ideal S1536 .f32)
    (a3 : FVec Ideal S512x512 .f32) (a4 : FVec Ideal S512 .f32) [Cert.Pre_finite_inputs.Facts]
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn, fn_part1, andi] at h0
  obtain ⟨h0123, _⟩ := IntOp.andi_eq_one.1 h0
  obtain ⟨h012, _⟩ := IntOp.andi_eq_one.1 h0123
  obtain ⟨h01, e2⟩ := IntOp.andi_eq_one.1 h012
  obtain ⟨e0, e1⟩ := IntOp.andi_eq_one.1 h01
  exact ⟨fun i => exists_real_of_ne (Cert.FiniteEntries.arr_real a0 _ _ _ e0 i),
    fun i => exists_real_of_ne (Cert.FiniteEntries.arr_real a1 _ _ _ e1 i),
    fun i => exists_real_of_ne (Cert.FiniteEntries.arr_real a2 _ _ _ e2 i)⟩

end Cert.Attn

end
-- ==== Proof.lean ====
/-
  Multi-head self-attention with an output projection: a two-stage kernel against its plain array reference, equal
  on the extended reals for finite inputs.

  Both programs compute, from x : [64, 500, 256], W_a : [1536, 256], b_a : [1536], W_p : [512, 512], b_p : [512],
      qkv = x · W_aᵀ + b_a,   per head h:  S = (q_h · k_hᵀ) / 8,  E = exp (S - rowmax S),   then the heads side by side
      against W_pᵀ plus b_p.
  They differ in ONE place: the kernel forms (E · v_h) and divides each row by the row sum of E; the reference divides E
  by its row sums first (a softmax) and then multiplies by v_h. On the extended reals the two agree when the row sum is a
  positive real, which it is for finite inputs: every score is then a real number, the row maximum is one of them, each
  entry of E is the exponential of a real, and a sum of 500 positive reals is a positive real. Dividing by a positive real
  L is multiplying by the real 1/L, a non-negative real factor distributes over any finite sum of extended reals, and
  multiplication is commutative and associative. That is the only use of the precondition.

  The kernel's first stage (the fused projection, 40 row-blocks of 800) and second stage (one batch element per grid
  point: eight heads, concatenated, then the output projection) each leave ONE whole-array function of their operands;
  reshapes and transposes around them are read at an index. The reference's 38 operations are read one at a time.
-/
import proofs.«103506_j85375359910650_2_alg».proof.Defs
import proofs.«103506_j85375359910650_2_alg».proof.Proof.Gen.Kernel
import proofs.«103506_j85375359910650_2_alg».proof.Proof.Gen.Kernel.Skeleton
import proofs.«103506_j85375359910650_2_alg».proof.Proof.Gen.Kernel.Launch
import proofs.«103506_j85375359910650_2_alg».proof.Proof.Gen.Kernel.Points
import proofs.«103506_j85375359910650_2_alg».proof.Proof.Gen.Kernel.Frame
import proofs.«103506_j85375359910650_2_alg».proof.Proof.Gen.KernelIdeal
import proofs.«103506_j85375359910650_2_alg».proof.Proof.Gen.KernelIdeal.Skeleton
import proofs.«103506_j85375359910650_2_alg».proof.Proof.Gen.KernelIdeal.Launch
import proofs.«103506_j85375359910650_2_alg».proof.Proof.Gen.KernelIdeal.Points
import proofs.«103506_j85375359910650_2_alg».proof.Proof.Gen.KernelIdeal.Frame
import proofs.«103506_j85375359910650_2_alg».proof.Proof.Gen.ReferenceIdeal
import proofs.«103506_j85375359910650_2_alg».proof.Proof.Gen.Pre_finite_inputs
import proofs.«103506_j85375359910650_2_alg».proof.Proof.Gen.ReferenceIdeal.Run
import proofs.«103506_j85375359910650_2_alg».proof.Proof.Gen.ReferenceIdeal.Read
import proofs.«103506_j85375359910650_2_alg».proof.Proof.KernelRun
import proofs.«103506_j85375359910650_2_alg».proof.Proof.KernelIsSpec
import proofs.«103506_j85375359910650_2_alg».proof.Proof.RefIsSpec
import proofs.«103506_j85375359910650_2_alg».proof.Proof.Law
import proofs.«103506_j85375359910650_2_alg».proof.Proof.Finite
import Idealize.ShloMosaic.Adequacy
import Idealize.ShloMosaic.Init

noncomputable section

namespace Cert.Proof

open Idealize.ShloMosaic Idealize.SL.Sem

/-- The three programs run to the end with their arguments unchanged. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten: nothing to preserve. -/
theorem preserves : Cert.preserves_Kernel_KernelIdeal := trivial

/-- The kernel ends at the value-product-first arrangement of the arguments, the reference at the softmax-first one;
    finite inputs make them one function. -/
theorem algebraic : Cert.algebraic_KernelIdeal_ReferenceIdeal := by
  intro m ρ m' ρ' hpre hagree
  refine ⟨fun c => Cert.Attn.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.Attn.Ker.kernel_value m ρ c), (h c).2⟩)
      (Cert.Attn.Ker.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v33_eq, Cert.Attn.Ref.result_eq, (hagree c).1, (hagree c).2.1, (hagree c).2.2.1,
      (hagree c).2.2.2.1, (hagree c).2.2.2.2]
    obtain ⟨h0, h1, h2⟩ := Cert.Attn.real_of_pre _ _ _ _ _ (hpre c)
    exact (Cert.Attn.outK_eq_outR _ _ _ _ _ h0 h1 h2).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
